-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4x1x8192 : Shape := ⟨3, ![4, 1, 8192]⟩
abbrev S4x8192 : Shape := ⟨2, ![4, 8192]⟩
abbrev S1x512x3 : Shape := ⟨3, ![1, 512, 3]⟩
abbrev S1x1024x3 : Shape := ⟨3, ![1, 1024, 3]⟩
abbrev S1x1x512 : Shape := ⟨3, ![1, 1, 512]⟩
abbrev S1x1x8192 : Shape := ⟨3, ![1, 1, 8192]⟩
abbrev S1x512 : Shape := ⟨2, ![1, 512]⟩
abbrev S1x8192 : Shape := ⟨2, ![1, 8192]⟩
abbrev S512x3 : Shape := ⟨2, ![512, 3]⟩
abbrev S1024x3 : Shape := ⟨2, ![1024, 3]⟩
abbrev S512x1024 : Shape := ⟨2, ![512, 1024]⟩
abbrev S512x1 : Shape := ⟨2, ![512, 1]⟩
abbrev S1024x1 : Shape := ⟨2, ![1024, 1]⟩
abbrev S1024 : Shape := ⟨1, ![1024]⟩
abbrev S1x1024 : Shape := ⟨2, ![1, 1024]⟩
abbrev S512 : Shape := ⟨1, ![512]⟩
abbrev S_ : Shape := ⟨0, ![]⟩
abbrev S4 : Shape := ⟨1, ![4]⟩

abbrev nBuf : Space → Nat
  | .hbm => 21
  | .vmem => 10
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x1x8192, .f32⟩
  | .hbm, ⟨3, _⟩ => ⟨S4x1x8192, .f32⟩
  | .hbm, ⟨4, _⟩ => ⟨S4x8192, .f32⟩
  | .hbm, ⟨5, _⟩ => ⟨S4x8192, .f32⟩
  | .hbm, ⟨6, _⟩ => ⟨S_, .f32⟩
  | .hbm, ⟨7, _⟩ => ⟨S4, .f32⟩
  | .hbm, ⟨8, _⟩ => ⟨S_, .f32⟩
  | .hbm, ⟨9, _⟩ => ⟨S4, .f32⟩
  | .hbm, ⟨10, _⟩ => ⟨S4, .f32⟩
  | .hbm, ⟨11, _⟩ => ⟨S_, .f32⟩
  | .hbm, ⟨12, _⟩ => ⟨S4, .f32⟩
  | .hbm, ⟨13, _⟩ => ⟨S_, .f32⟩
  | .hbm, ⟨14, _⟩ => ⟨S4, .f32⟩
  | .hbm, ⟨15, _⟩ => ⟨S4, .f32⟩
  | .hbm, ⟨16, _⟩ => ⟨S4, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S1x512x3, .f32⟩
  | .local _ .vmem, ⟨1, _⟩ => ⟨S1x512x3, .f32⟩
  | .local _ .vmem, ⟨2, _⟩ => ⟨S1x1024x3, .f32⟩
  | .local _ .vmem, ⟨3, _⟩ => ⟨S1x1024x3, .f32⟩
  | .local _ .vmem, ⟨4, _⟩ => ⟨S1x1x512, .f32⟩
  | .local _ .vmem, ⟨5, _⟩ => ⟨S1x1x512, .f32⟩
  | .local _ .vmem, ⟨6, _⟩ => ⟨S1x1x8192, .f32⟩
  | .local _ .vmem, ⟨7, _⟩ => ⟨S1x1x8192, .f32⟩
  | .local _ .vmem, ⟨8, _⟩ => ⟨S1x512, .f32⟩
  | .local _ .vmem, ⟨9, _⟩ => ⟨S1x8192, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0_0 : Ref sig .tc := ⟨.hbm, 2, rfl⟩
abbrev main_call0_v0_1 : Ref sig .tc := ⟨.hbm, 3, rfl⟩
abbrev main_v0_0 : Ref sig .tc := ⟨.hbm, 4, rfl⟩
abbrev main_v0_1 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_cst_2 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_3 : Ref sig .tc := ⟨.hbm, 17, rfl⟩
abbrev main_v8 : Ref sig .tc := ⟨.hbm, 18, rfl⟩
abbrev main_cst_4 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 16, 8], ![false, false, false]⟩

def k0_mult1 (i : grid0.Coords) : BitVec 32 :=
  let arg2 : BitVec 32 := BitVec.ofNat 32 (i 2).val
  let c1024_i32 : BitVec 32 := 1024#32
  let v48 : BitVec 32 := Scalar.muli arg2 c1024_i32
  v48
def k0_off1 (i : grid0.Coords) : Fin 2 → Nat :=
  let c0_15 : Index := 0#32
  let arg2 : BitVec 32 := BitVec.ofNat 32 (i 2).val
  let c1024_i32 : BitVec 32 := 1024#32
  let v48 : BitVec 32 := Scalar.muli arg2 c1024_i32
  let v49 : BitVec 32 := v48
  let v50 : Index := Scalar.indexCast v49
  ![0, v50.toNat]
def k0_cond3 (i : grid0.Coords) : BitVec 1 :=
  let arg2 : BitVec 32 := BitVec.ofNat 32 (i 2).val
  let c7_i32 : BitVec 32 := 7#32
  let v58 : BitVec 1 := Scalar.cmpi .eq arg2 c7_i32
  let v59 : BitVec 32 := Scalar.extui v58
  let c0_i32_17 : BitVec 32 := 0#32
  let v60 : BitVec 1 := Scalar.cmpi .ne v59 c0_i32_17
  v60

def k0_cond4 (i : grid0.Coords) : BitVec 1 :=
  let arg1 : BitVec 32 := BitVec.ofNat 32 (i 1).val
  let c15_i32 : BitVec 32 := 15#32
  let v61 : BitVec 1 := Scalar.cmpi .eq arg1 c15_i32
  let arg2 : BitVec 32 := BitVec.ofNat 32 (i 2).val
  let c7_i32_18 : BitVec 32 := 7#32
  let v62 : BitVec 1 := Scalar.cmpi .eq arg2 c7_i32_18
  let v63 : BitVec 1 := Scalar.andi v61 v62
  let v64 : BitVec 32 := Scalar.extui v63
  let c0_i32_19 : BitVec 32 := 0#32
  let v65 : BitVec 1 := Scalar.cmpi .ne v64 c0_i32_19
  v65

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  shapeCasts_S4x1x8192_S4x8192 : S4x1x8192.ShapeCasts S4x8192
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1x512x3_S1x512x3_0_0_0 : ∀ a, (![0, 0, 0] : Fin 3 → Nat) a + S1x512x3.size a ≤ S1x512x3.size a
  h_S1x512x3 : 0 < S1x512x3.numel
  shapeCasts_S1x512x3_S512x3 : S1x512x3.ShapeCasts S512x3
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  slices_S512x3_o0_0_S512x1 : S512x3.Slices ![0, 0] S512x1
  slices_S1024x3_o0_0_S1024x1 : S1024x3.Slices ![0, 0] S1024x1
  shapeCasts_S1024x1_S1024 : S1024x1.ShapeCasts S1024
  shapeCasts_S1024_S1x1024 : S1024.ShapeCasts S1x1024
  broadcasts_S512x1_S512x1024 : S512x1.Broadcasts S512x1024
  broadcasts_S1x1024_S512x1024 : S1x1024.Broadcasts S512x1024
  slices_S512x3_o0_1_S512x1 : S512x3.Slices ![0, 1] S512x1
  slices_S1024x3_o0_1_S1024x1 : S1024x3.Slices ![0, 1] S1024x1
  slices_S512x3_o0_2_S512x1 : S512x3.Slices ![0, 2] S512x1
  slices_S1024x3_o0_2_S1024x1 : S1024x3.Slices ![0, 2] S1024x1
  reduces_S512x1024_S512 : S512x1024.Reduces [1] S512
  reduces_S512x1024_S1024 : S512x1024.Reduces [0] S1024
  shapeCasts_S512_S1x512 : S512.ShapeCasts S1x512
  h_S1x1024 : 0 < S1x1024.numel
  shapeCasts_S1x1024_S1x1024 : S1x1024.ShapeCasts S1x1024
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  shapeCasts_S1x512_S1x1x512 : S1x512.ShapeCasts S1x1x512
  inb_S1x1x8192_S1x1x8192_0_0_0 : ∀ a, (![0, 0, 0] : Fin 3 → Nat) a + S1x1x8192.size a ≤ S1x1x8192.size a
  h_S1x1x8192 : 0 < S1x1x8192.numel
  shapeCasts_S1x1x8192_S1x8192 : S1x1x8192.ShapeCasts S1x8192
  shapeCasts_S1x8192_S1x1x8192 : S1x8192.ShapeCasts S1x1x8192
  reducesTo_S4x8192_S4_d1 : S4x8192.ReducesTo [1] S4
  h_S_ : 0 < S_.numel
  bcast_S_S4 : S_.BroadcastsInDim S4 (![] : Fin 0 → Fin S4.rank)
  reducesTo_S4_S_d0 : S4.ReducesTo [0] S_
  hrank0 : 0 < grid0.rank
  k0_mult1_dvd : ∀ i : grid0.Coords, 1024 ∣ (k0_mult1 i).toNat
  k0_off1_inb : ∀ i : grid0.Coords, ∀ a, (k0_off1 i) a + S1x1024.size a ≤ S1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x3.size a ≤ S4x8192x3.size a
  hwx0_0 : ∀ i : grid0.Coords, EltTy.bits .f32 = 32 ∨ (Rect.block (s := S4x8192x3) S1x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x3.size a ≤ S4x8192x3.size a
  hwx0_1 : ∀ i : grid0.Coords, EltTy.bits .f32 = 32 ∨ (Rect.block (s := S4x8192x3) S1x1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S4x1x8192.size a
  hwx0_2 : ∀ i : grid0.Coords, EltTy.bits .f32 = 32 ∨ (Rect.block (s := S4x1x8192) S1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x8192.size a ≤ S4x1x8192.size a
  hwx0_3 : ∀ i : grid0.Coords, EltTy.bits .f32 = 32 ∨ (Rect.block (s := S4x1x8192) S1x1x8192.size (cc0_transform_3 i) (hinb0_3 i)).WholeWords (EltTy.packing .f32)

variable [Facts₀]

abbrev win0_0 : Pipeline.Window sig grid0 :=
  Pipeline.Window.ofSpec (Memref.whole main_arg0) S1x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0_0) S1x1x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0_1) S1x1x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond3 i == 1#1) | 3 => fun i => !(k0_cond4 i == 1#1) | ⟨_ + 4, h⟩ => absurd h (Nat.not_lt.2 (Nat.le_add_left _ _))

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩
abbrev S4 : Shape := ⟨1, ![4]⟩

abbrev nBuf : Space → Nat
  | .hbm => 37
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x3, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192, .f32⟩
  | .hbm, ⟨20, _⟩ => ⟨S_, .f32⟩
  | .hbm, ⟨21, _⟩ => ⟨S4x8192, .f32⟩
  | .hbm, ⟨22, _⟩ => ⟨S_, .f32⟩
  | .hbm, ⟨23, _⟩ => ⟨S4, .f32⟩
  | .hbm, ⟨24, _⟩ => ⟨S_, .f32⟩
  | .hbm, ⟨25, _⟩ => ⟨S4, .f32⟩
  | .hbm, ⟨26, _⟩ => ⟨S4, .f32⟩
  | .hbm, ⟨27, _⟩ => ⟨S_, .f32⟩
  | .hbm, ⟨28, _⟩ => ⟨S4, .f32⟩
  | .hbm, ⟨29, _⟩ => ⟨S_, .f32⟩
  | .hbm, ⟨30, _⟩ => ⟨S4, .f32⟩
  | .hbm, ⟨31, _⟩ => ⟨S4, .f32⟩
  | .hbm, ⟨32, _⟩ => ⟨S4, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_cst_9 : Ref sig .tc := ⟨.hbm, 35, rfl⟩
abbrev main_v23 : Ref sig .tc := ⟨.hbm, 36, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192x8192_S4x8192_d1 : S4x8192x8192.ReducesTo [1] S4x8192
  reducesTo_S4x8192_S4_d1 : S4x8192.ReducesTo [1] S4
  bcast_S_S4 : S_.BroadcastsInDim S4 (![] : Fin 0 → Fin S4.rank)
  reducesTo_S4_S_d0 : S4.ReducesTo [0] S_
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.LibWhole.lean ====
/-
  Whole-buffer accesses through a view, over an abstract shape.

  A load through the rectangle at zero offsets of the shape's own sizes reads the view's contents; one unmasked
  store through that rectangle leaves its payload, whatever the buffer held; and a load through it of what one
  such store left reads the payload. Each is stated for any shape `S`, so that a use at a shape of large
  literal extents unifies the rectangle syntactically and never unfolds the sizes.
-/
import Idealize.ShloMosaic.Lib.Pipeline.FrameBody
import Idealize.ShloMosaic.Lib.Pipeline.Value

noncomputable section

namespace Cert.LibWhole

open Idealize.ShloMosaic

variable {Val : EltTy → Type} {sig : RefSig} {κ : Kind} {sp : Space} {S : Shape} {e : EltTy}

/-- A load of the whole shape at zero offsets reads what the view reads. -/
theorem readAt_whole (v : View sig κ sp S e) (f : v.ty.Contents Val) {off : Fin S.rank → Nat} (h : off = fun _ => 0)
    (inb : ∀ a, off a + S.size a ≤ S.size a) :
    v.readAt Val (Rect.unit off S.size inb).toLoadRect f = v.read Val f := by
  rw [View.readAt_eq_ld]; exact View.ld_unit_zero h inb _

/-- One unmasked store of the whole shape at zero offsets leaves its payload. -/
theorem read_writes_whole [∀ e, Nonempty (Val e)] (v : View sig κ sp S e) (f : v.ty.Contents Val) {off : Fin S.rank → Nat}
    (h : off = fun _ => 0) (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero h inb y⟩)]
  exact View.canon_unit_zero h inb w

end Cert.LibWhole

end
-- ==== Proof.Pieces.lean ====
/-
  What one grid step leaves in its two running-minimum buffers and, where it writes them, in its two output blocks.

  A step first resets a buffer to the start value where a sweep begins, then replaces the row buffer (512 entries) by the
  entrywise minimum of what it held and the tile's row minima, and replaces the 1024 entries of the column buffer under the
  current column block by the entrywise minimum of what they held and the tile's column minima, leaving the other 7168
  entries as they were. Where a sweep ends it copies a buffer to the output block. Five combinations of "begins" and
  "ends" occur over the grid; for each, every buffer is stated as a function of the step's two input blocks and of what
  the buffers held before.
-/
import proofs.«145213_j42795054137808_2_alg».proof.Proof.Gen.KernelIdeal.Frame
import proofs.«145213_j42795054137808_2_alg».proof.Proof.LibWhole
import Idealize.ShloMosaic.Lib.Pipeline.Value
import Idealize.ShloMosaic.Lib.WritesUnit
import Idealize.ShloMosaic.Lib.WholeRead
import Idealize.ShloMosaic.Lib.Tactic

set_option maxRecDepth 16384

noncomputable section

namespace Cert.KernelIdeal.Pieces

open Idealize.ShloMosaic Idealize.ShloMosaic.TcCoe Idealize.SL.Sem
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The offsets of the current column block inside the column buffer. -/
abbrev colOff (i : grid0.Coords) : Fin 2 → Nat := ![0, 1024 * (i 2).val]

variable (c : Dev nD) (i : grid0.Coords)
  (arg3 : Memref sig .tc .vmem S1x512x3 .f32) (harg3 : arg3.IsWhole)
  (arg4 : Memref sig .tc .vmem S1x1024x3 .f32) (harg4 : arg4.IsWhole)
  (arg5 : Memref sig .tc .vmem S1x1x512 .f32) (harg5 : arg5.IsWhole)
  (arg6 : Memref sig .tc .vmem S1x1x8192 .f32) (harg6 : arg6.IsWhole)
  (arg7 : Memref sig .tc .vmem S1x512 .f32) (harg7 : arg7.IsWhole)
  (arg8 : Memref sig .tc .vmem S1x8192 .f32) (harg8 : arg8.IsWhole)
  (x0 : Vec F S1x512x3 .f32) (x1 : Vec F S1x1024x3 .f32)

/-- What a load of the current column block reads of a column buffer holding `xs1`. -/
abbrev colLoad (i : grid0.Coords) (xs1 : Vec F S1x8192 .f32) : Vec F S1x1024 .f32 :=
  View.ld xs1 (Rect.unit (s := S1x8192) (k0_off1 i) S1x1024.size (k0_off1_inb i))

/-! ## The first step of a batch -/
section CaseA
variable (hc0 : cond0_0 i) (hc1 : cond0_1 i) (hc2 : ¬cond0_2 i) (hc3 : ¬cond0_3 i)

theorem rowA : sout0_A_0 c i arg3 harg3 arg4 harg4 arg5 harg5 arg6 harg6 arg7 harg7 arg8 harg8 hc0 hc1 hc2 hc3 x0 x1 = k0_pay1 (k0_pay8 x0 x1) (k0_pay6 (F := F)) := by
  unfold sout0_A_0
  rw [View.read_writes_eq_canon _ _ _ (scover0_A_0 c i arg3 harg3 arg4 harg4 arg5 harg5 arg6 harg6 arg7 harg7 arg8 harg8 hc0 hc1 hc2 hc3 x0 x1)]
  unfold kernelRun0_A
  dsimp only
  sl_unfold_words
  rw [View.canon_cons_unit_zero (S := S1x512) hz2, View.readCov_unit_zero (S := S1x512) _ hz2]
  simp only [View.readAt_eq_ld, harg3.read_unread, harg4.read_unread,
    View.ld_unit_zero (S := S1x512x3) hz3, View.ld_unit_zero (S := S1x1024x3) hz3]

theorem colA_in (y : S1x8192.Idx) (x : S1x1024.Idx) (hx : ∀ a, (y a).val = colOff i a + (x a).val) :
    sout0_A_1 c i arg3 harg3 arg4 harg4 arg5 harg5 arg6 harg6 arg7 harg7 arg8 harg8 hc0 hc1 hc2 hc3 x0 x1 y = k0_pay2 (k0_pay7 x0 x1) (colLoad i (k0_pay5 (F := F))) x := by
  unfold sout0_A_1
  unfold kernelRun0_A
  dsimp only
  sl_unfold_words
  simp only [View.readAt_eq_ld, harg3.read_unread, harg4.read_unread,
    Cert.LibWhole.read_writes_whole (S := S1x8192) _ _ hz2,
    View.ld_unit_zero (S := S1x512x3) hz3, View.ld_unit_zero (S := S1x1024x3) hz3]
  exact View.read_writes_cons_unit_of_mem VS0_1 _ _ _ _ y x (k0_off1_eq i) hx

theorem colA_out (y : S1x8192.Idx) (hy : (y 1).val < colOff i 1 ∨ colOff i 1 + 1024 ≤ (y 1).val) :
    sout0_A_1 c i arg3 harg3 arg4 harg4 arg5 harg5 arg6 harg6 arg7 harg7 arg8 harg8 hc0 hc1 hc2 hc3 x0 x1 y = k0_pay5 (F := F) y := by
  unfold sout0_A_1
  unfold kernelRun0_A
  dsimp only
  refine (View.read_writes_cons_unit_of_not_mem VS0_1 _ _ _ _ y (k0_off1_eq i) 1 hy).trans ?_
  exact congrFun (Cert.LibWhole.read_writes_whole (S := S1x8192) VS0_1 _ hz2 _ _) y

end CaseA

/-! ## A step inside a sweep (neither begins nor ends) -/
section CaseB
variable (hc0 : ¬cond0_0 i) (hc1 : ¬cond0_1 i) (hc2 : ¬cond0_2 i) (hc3 : ¬cond0_3 i)
  (xs0 : Vec F S1x512 .f32) (xs1 : Vec F S1x8192 .f32)

theorem rowB : sout0_B_0 c i arg3 harg3 arg4 harg4 arg5 harg5 arg6 harg6 arg7 harg7 arg8 harg8 hc0 hc1 hc2 hc3 x0 x1 xs0 xs1 = k0_pay1 (k0_pay8 x0 x1) xs0 := by
  unfold sout0_B_0
  rw [View.read_writes_eq_canon _ _ _ (scover0_B_0 c i arg3 harg3 arg4 harg4 arg5 harg5 arg6 harg6 arg7 harg7 arg8 harg8 hc0 hc1 hc2 hc3 x0 x1 xs0 xs1)]
  unfold kernelRun0_B
  dsimp only
  sl_unfold_words
  rw [View.canon_unit_zero hz2]
  simp only [View.readAt_eq_ld, harg3.read_unread, harg4.read_unread, harg7.read_unread,
    View.ld_unit_zero (S := S1x512x3) hz3, View.ld_unit_zero (S := S1x1024x3) hz3, View.ld_unit_zero (S := S1x512) hz2]

theorem colB_in (y : S1x8192.Idx) (x : S1x1024.Idx) (hx : ∀ a, (y a).val = colOff i a + (x a).val) :
    sout0_B_1 c i arg3 harg3 arg4 harg4 arg5 harg5 arg6 harg6 arg7 harg7 arg8 harg8 hc0 hc1 hc2 hc3 x0 x1 xs0 xs1 y = k0_pay2 (k0_pay7 x0 x1) (colLoad i xs1) x := by
  unfold sout0_B_1
  unfold kernelRun0_B
  dsimp only
  sl_unfold_words
  simp only [View.readAt_eq_ld, harg3.read_unread, harg4.read_unread, harg8.read_unread,
    View.ld_unit_zero (S := S1x512x3) hz3, View.ld_unit_zero (S := S1x1024x3) hz3]
  exact View.read_writes_cons_unit_of_mem arg8.view _ _ _ [] y x (k0_off1_eq i) hx

theorem colB_out (y : S1x8192.Idx) (hy : (y 1).val < colOff i 1 ∨ colOff i 1 + 1024 ≤ (y 1).val) :
    sout0_B_1 c i arg3 harg3 arg4 harg4 arg5 harg5 arg6 harg6 arg7 harg7 arg8 harg8 hc0 hc1 hc2 hc3 x0 x1 xs0 xs1 y = xs1 y := by
  unfold sout0_B_1
  unfold kernelRun0_B
  dsimp only
  refine (View.read_writes_cons_unit_of_not_mem arg8.view _ _ _ [] y (k0_off1_eq i) 1 hy).trans ?_
  rw [View.writes_nil]
  exact congrFun (harg8.read_unread xs1) y

end CaseB

/-! ## A step that ends a sweep over the second cloud, not the last of its batch -/
section CaseC
variable (hc0 : ¬cond0_0 i) (hc1 : ¬cond0_1 i) (hc2 : cond0_2 i) (hc3 : ¬cond0_3 i)
  (xs0 : Vec F S1x512 .f32) (xs1 : Vec F S1x8192 .f32)

theorem rowC : sout0_C_0 c i arg3 harg3 arg4 harg4 arg5 harg5 arg6 harg6 arg7 harg7 arg8 harg8 hc0 hc1 hc2 hc3 x0 x1 xs0 xs1 = k0_pay1 (k0_pay8 x0 x1) xs0 := by
  unfold sout0_C_0
  rw [View.read_writes_eq_canon _ _ _ (scover0_C_0 c i arg3 harg3 arg4 harg4 arg5 harg5 arg6 harg6 arg7 harg7 arg8 harg8 hc0 hc1 hc2 hc3 x0 x1 xs0 xs1)]
  unfold kernelRun0_C
  dsimp only
  sl_unfold_words
  rw [View.canon_unit_zero hz2]
  simp only [View.readAt_eq_ld, harg3.read_unread, harg4.read_unread, harg7.read_unread,
    View.ld_unit_zero (S := S1x512x3) hz3, View.ld_unit_zero (S := S1x1024x3) hz3, View.ld_unit_zero (S := S1x512) hz2]

theorem colC_in (y : S1x8192.Idx) (x : S1x1024.Idx) (hx : ∀ a, (y a).val = colOff i a + (x a).val) :
    sout0_C_1 c i arg3 harg3 arg4 harg4 arg5 harg5 arg6 harg6 arg7 harg7 arg8 harg8 hc0 hc1 hc2 hc3 x0 x1 xs0 xs1 y = k0_pay2 (k0_pay7 x0 x1) (colLoad i xs1) x := by
  unfold sout0_C_1
  unfold kernelRun0_C
  dsimp only
  sl_unfold_words
  simp only [View.readAt_eq_ld, harg3.read_unread, harg4.read_unread, harg8.read_unread,
    View.ld_unit_zero (S := S1x512x3) hz3, View.ld_unit_zero (S := S1x1024x3) hz3]
  exact View.read_writes_cons_unit_of_mem arg8.view _ _ _ [] y x (k0_off1_eq i) hx

theorem colC_out (y : S1x8192.Idx) (hy : (y 1).val < colOff i 1 ∨ colOff i 1 + 1024 ≤ (y 1).val) :
    sout0_C_1 c i arg3 harg3 arg4 harg4 arg5 harg5 arg6 harg6 arg7 harg7 arg8 harg8 hc0 hc1 hc2 hc3 x0 x1 xs0 xs1 y = xs1 y := by
  unfold sout0_C_1
  unfold kernelRun0_C
  dsimp only
  refine (View.read_writes_cons_unit_of_not_mem arg8.view _ _ _ [] y (k0_off1_eq i) 1 hy).trans ?_
  rw [View.writes_nil]
  exact congrFun (harg8.read_unread xs1) y

theorem out2C : out0_C_2 c i arg3 harg3 arg4 harg4 arg5 harg5 arg6 harg6 arg7 harg7 arg8 harg8 hc0 hc1 hc2 hc3 x0 x1 xs0 xs1 = k0_pay3 (k0_pay1 (k0_pay8 x0 x1) xs0) := by
  unfold out0_C_2
  rw [View.read_writes_eq_canon _ _ _ (cover0_C_2 c i arg3 harg3 arg4 harg4 arg5 harg5 arg6 harg6 arg7 harg7 arg8 harg8 hc0 hc1 hc2 hc3 x0 x1 xs0 xs1)]
  unfold kernelRun0_C
  dsimp only
  sl_unfold_words
  rw [View.canon_unit_zero hz3, View.readCov_unit_zero arg7.view hz2]
  simp only [View.readAt_eq_ld, harg3.read_unread, harg4.read_unread, harg7.read_unread,
    View.ld_unit_zero (S := S1x512x3) hz3, View.ld_unit_zero (S := S1x1024x3) hz3, View.ld_unit_zero (S := S1x512) hz2]

end CaseC

/-! ## A step that begins a sweep over the second cloud, not the first of its batch -/
section CaseD
variable (hc0 : ¬cond0_0 i) (hc1 : cond0_1 i) (hc2 : ¬cond0_2 i) (hc3 : ¬cond0_3 i)
  (xs1 : Vec F S1x8192 .f32)

theorem rowD : sout0_D_0 c i arg3 harg3 arg4 harg4 arg5 harg5 arg6 harg6 arg7 harg7 arg8 harg8 hc0 hc1 hc2 hc3 x0 x1 xs1 = k0_pay1 (k0_pay8 x0 x1) (k0_pay6 (F := F)) := by
  unfold sout0_D_0
  rw [View.read_writes_eq_canon _ _ _ (scover0_D_0 c i arg3 harg3 arg4 harg4 arg5 harg5 arg6 harg6 arg7 harg7 arg8 harg8 hc0 hc1 hc2 hc3 x0 x1 xs1)]
  unfold kernelRun0_D
  dsimp only
  sl_unfold_words
  rw [View.canon_cons_unit_zero (S := S1x512) hz2, View.readCov_unit_zero (S := S1x512) _ hz2]
  simp only [View.readAt_eq_ld, harg3.read_unread, harg4.read_unread,
    View.ld_unit_zero (S := S1x512x3) hz3, View.ld_unit_zero (S := S1x1024x3) hz3]

theorem colD_in (y : S1x8192.Idx) (x : S1x1024.Idx) (hx : ∀ a, (y a).val = colOff i a + (x a).val) :
    sout0_D_1 c i arg3 harg3 arg4 harg4 arg5 harg5 arg6 harg6 arg7 harg7 arg8 harg8 hc0 hc1 hc2 hc3 x0 x1 xs1 y = k0_pay2 (k0_pay7 x0 x1) (colLoad i xs1) x := by
  unfold sout0_D_1
  unfold kernelRun0_D
  dsimp only
  sl_unfold_words
  simp only [View.readAt_eq_ld, harg3.read_unread, harg4.read_unread, harg8.read_unread,
    View.ld_unit_zero (S := S1x512x3) hz3, View.ld_unit_zero (S := S1x1024x3) hz3]
  exact View.read_writes_cons_unit_of_mem arg8.view _ _ _ [] y x (k0_off1_eq i) hx

theorem colD_out (y : S1x8192.Idx) (hy : (y 1).val < colOff i 1 ∨ colOff i 1 + 1024 ≤ (y 1).val) :
    sout0_D_1 c i arg3 harg3 arg4 harg4 arg5 harg5 arg6 harg6 arg7 harg7 arg8 harg8 hc0 hc1 hc2 hc3 x0 x1 xs1 y = xs1 y := by
  unfold sout0_D_1
  unfold kernelRun0_D
  dsimp only
  refine (View.read_writes_cons_unit_of_not_mem arg8.view _ _ _ [] y (k0_off1_eq i) 1 hy).trans ?_
  rw [View.writes_nil]
  exact congrFun (harg8.read_unread xs1) y

end CaseD

/-! ## The last step of a batch -/
section CaseE
variable (hc0 : ¬cond0_0 i) (hc1 : ¬cond0_1 i) (hc2 : cond0_2 i) (hc3 : cond0_3 i)
  (xs0 : Vec F S1x512 .f32) (xs1 : Vec F S1x8192 .f32)

theorem rowE : sout0_E_0 c i arg3 harg3 arg4 harg4 arg5 harg5 arg6 harg6 arg7 harg7 arg8 harg8 hc0 hc1 hc2 hc3 x0 x1 xs0 xs1 = k0_pay1 (k0_pay8 x0 x1) xs0 := by
  unfold sout0_E_0
  rw [View.read_writes_eq_canon _ _ _ (scover0_E_0 c i arg3 harg3 arg4 harg4 arg5 harg5 arg6 harg6 arg7 harg7 arg8 harg8 hc0 hc1 hc2 hc3 x0 x1 xs0 xs1)]
  unfold kernelRun0_E
  dsimp only
  sl_unfold_words
  rw [View.canon_unit_zero hz2]
  simp only [View.readAt_eq_ld, harg3.read_unread, harg4.read_unread, harg7.read_unread,
    View.ld_unit_zero (S := S1x512x3) hz3, View.ld_unit_zero (S := S1x1024x3) hz3, View.ld_unit_zero (S := S1x512) hz2]

theorem colE_in (y : S1x8192.Idx) (x : S1x1024.Idx) (hx : ∀ a, (y a).val = colOff i a + (x a).val) :
    sout0_E_1 c i arg3 harg3 arg4 harg4 arg5 harg5 arg6 harg6 arg7 harg7 arg8 harg8 hc0 hc1 hc2 hc3 x0 x1 xs0 xs1 y = k0_pay2 (k0_pay7 x0 x1) (colLoad i xs1) x := by
  unfold sout0_E_1
  unfold kernelRun0_E
  dsimp only
  sl_unfold_words
  simp only [View.readAt_eq_ld, harg3.read_unread, harg4.read_unread, harg8.read_unread,
    View.ld_unit_zero (S := S1x512x3) hz3, View.ld_unit_zero (S := S1x1024x3) hz3]
  exact View.read_writes_cons_unit_of_mem arg8.view _ _ _ [] y x (k0_off1_eq i) hx

theorem colE_out (y : S1x8192.Idx) (hy : (y 1).val < colOff i 1 ∨ colOff i 1 + 1024 ≤ (y 1).val) :
    sout0_E_1 c i arg3 harg3 arg4 harg4 arg5 harg5 arg6 harg6 arg7 harg7 arg8 harg8 hc0 hc1 hc2 hc3 x0 x1 xs0 xs1 y = xs1 y := by
  unfold sout0_E_1
  unfold kernelRun0_E
  dsimp only
  refine (View.read_writes_cons_unit_of_not_mem arg8.view _ _ _ [] y (k0_off1_eq i) 1 hy).trans ?_
  rw [View.writes_nil]
  exact congrFun (harg8.read_unread xs1) y

theorem out2E : out0_E_2 c i arg3 harg3 arg4 harg4 arg5 harg5 arg6 harg6 arg7 harg7 arg8 harg8 hc0 hc1 hc2 hc3 x0 x1 xs0 xs1 = k0_pay3 (k0_pay1 (k0_pay8 x0 x1) xs0) := by
  unfold out0_E_2
  rw [View.read_writes_eq_canon _ _ _ (cover0_E_2 c i arg3 harg3 arg4 harg4 arg5 harg5 arg6 harg6 arg7 harg7 arg8 harg8 hc0 hc1 hc2 hc3 x0 x1 xs0 xs1)]
  unfold kernelRun0_E
  dsimp only
  sl_unfold_words
  rw [View.canon_unit_zero hz3, View.readCov_unit_zero arg7.view hz2]
  simp only [View.readAt_eq_ld, harg3.read_unread, harg4.read_unread, harg7.read_unread,
    View.ld_unit_zero (S := S1x512x3) hz3, View.ld_unit_zero (S := S1x1024x3) hz3, View.ld_unit_zero (S := S1x512) hz2]

theorem out3E : out0_E_3 c i arg3 harg3 arg4 harg4 arg5 harg5 arg6 harg6 arg7 harg7 arg8 harg8 hc0 hc1 hc2 hc3 x0 x1 xs0 xs1 = k0_pay4 (sout0_E_1 c i arg3 harg3 arg4 harg4 arg5 harg5 arg6 harg6 arg7 harg7 arg8 harg8 hc0 hc1 hc2 hc3 x0 x1 xs0 xs1) := by
  unfold out0_E_3 sout0_E_1
  rw [View.read_writes_eq_canon _ _ _ (cover0_E_3 c i arg3 harg3 arg4 harg4 arg5 harg5 arg6 harg6 arg7 harg7 arg8 harg8 hc0 hc1 hc2 hc3 x0 x1 xs0 xs1)]
  unfold kernelRun0_E
  dsimp only
  sl_unfold_words
  rw [View.canon_unit_zero hz3, View.readAt_eq_ld, View.ld_unit_zero (S := S1x8192) hz2]

end CaseE

end Cert.KernelIdeal.Pieces

end
-- ==== Proof.MinLaws.lean ====
/-
  Least values over the extended reals, carried by their universal property.

  `IsMinOver T P f v` says that `v` is the greatest lower bound of the start value `T` and of the values `f k` over the
  `k` satisfying `P`: an extended real lies below `v` exactly when it lies below `T` and below every such `f k`.
  Such a `v` is unique. A minimum accumulated piece by piece is then: the start value over no index; the binary minimum
  of two such values over the union of their index sets; a fold of `min` over a finite type re-indexed into the set;
  and, over every index, the fold of `min` over the whole finite type.
-/
import Idealize.ShloMosaic.PureOps.Ideal

noncomputable section

namespace Cert.Chamfer

/-- `v` is the least of `T` and the `f k` with `P k`. -/
def IsMinOver {ι : Type} (T : EReal) (P : ι → Prop) (f : ι → EReal) (v : EReal) : Prop :=
  ∀ c : EReal, c ≤ v ↔ c ≤ T ∧ ∀ k, P k → c ≤ f k

variable {ι : Type} {T : EReal} {P Q R : ι → Prop} {f : ι → EReal} {v w a b : EReal}

/-- The least value is determined by what lies below it. -/
theorem IsMinOver.unique (hv : IsMinOver T P f v) (hw : IsMinOver T P f w) : v = w :=
  eq_of_forall_le_iff fun c => (hv c).trans (hw c).symm

/-- Over no index the least value is the start value. -/
theorem isMinOver_none (T : EReal) (f : ι → EReal) : IsMinOver T (fun _ => False) f T :=
  fun _ => ⟨fun h => ⟨h, fun _ hk => hk.elim⟩, fun h => h.1⟩

/-- The same least value over an equivalent description of the index set. -/
theorem IsMinOver.congr_pred (h : IsMinOver T P f v) (hPQ : ∀ k, P k ↔ Q k) : IsMinOver T Q f v :=
  fun c => (h c).trans ⟨fun ⟨hT, hk⟩ => ⟨hT, fun k hq => hk k ((hPQ k).mpr hq)⟩,
    fun ⟨hT, hk⟩ => ⟨hT, fun k hp => hk k ((hPQ k).mp hp)⟩⟩

/-- The same least value of a function that agrees on the index set. -/
theorem IsMinOver.congr_fun {g : ι → EReal} (h : IsMinOver T P f v) (hfg : ∀ k, P k → f k = g k) : IsMinOver T P g v :=
  fun c => (h c).trans ⟨fun ⟨hT, hk⟩ => ⟨hT, fun k hp => hfg k hp ▸ hk k hp⟩,
    fun ⟨hT, hk⟩ => ⟨hT, fun k hp => (hfg k hp).symm ▸ hk k hp⟩⟩

/-- The minimum of two least values is the least value over the union of the index sets. -/
theorem IsMinOver.union (ha : IsMinOver T P f a) (hb : IsMinOver T Q f b) (hR : ∀ k, R k ↔ P k ∨ Q k) :
    IsMinOver T R f (min a b) := by
  intro c
  rw [le_min_iff, ha c, hb c]
  constructor
  · rintro ⟨⟨hT, hP⟩, _, hQ⟩
    exact ⟨hT, fun k hk => ((hR k).mp hk).elim (hP k) (hQ k)⟩
  · rintro ⟨hT, h⟩
    exact ⟨⟨hT, fun k hk => h k ((hR k).mpr (Or.inl hk))⟩, hT, fun k hk => h k ((hR k).mpr (Or.inr hk))⟩

/-- A fold of `min` from `T` over a finite type `κ`, its terms the values of `f` along `e : κ → ι`, is the least value over
    the range of `e`. -/
theorem isMinOver_fold {κ : Type} [Fintype κ] (T : EReal) (f : ι → EReal) (e : κ → ι) (Q : ι → Prop)
    (hQ : ∀ k, Q k ↔ ∃ q, e q = k) :
    IsMinOver T Q f ((Finset.univ : Finset κ).fold min T (fun q => f (e q))) := by
  intro c
  rw [Finset.le_fold_min]
  constructor
  · rintro ⟨hT, h⟩
    refine ⟨hT, fun k hk => ?_⟩
    obtain ⟨q, rfl⟩ := (hQ k).mp hk
    exact h q (Finset.mem_univ q)
  · rintro ⟨hT, h⟩
    exact ⟨hT, fun q _ => h (e q) ((hQ _).mpr ⟨q, rfl⟩)⟩

/-- Over every index of a finite type the least value is the fold of `min` over the type. -/
theorem IsMinOver.eq_fold [Fintype ι] (h : IsMinOver T (fun _ : ι => True) f v) :
    v = (Finset.univ : Finset ι).fold min T f :=
  h.unique (isMinOver_fold T f id (fun _ => True) fun k => ⟨fun _ => ⟨k, rfl⟩, fun _ => trivial⟩)

end Cert.Chamfer

end
-- ==== Proof.Dist.lean ====
/-
  Chamfer distances between two clouds of 8192 points of ℝ³, four clouds to a batch, stated over the extended reals.

  A cloud array is indexed by (batch, point, coordinate). For a point n of the first cloud and a point m of the second,
  the squared distance is written in two arrangements: coordinate by coordinate,
      0 + (x₀ - y₀)² + (x₁ - y₁)² + (x₂ - y₂)²,
  and expanded,
      (0 + Σ xₖ²) + (0 + Σ yₖ²) - 2 · Σ xₖ yₖ.
  The two agree when every coordinate is a real number (the law is the binomial square, which needs the
  products to distribute over the differences, and that fails at the infinities).
  From a table D of distances the two directions of the chamfer distance are the minimum over the second cloud for each
  point of the first, and the minimum over the first cloud for each point of the second; a minimum starts from the
  value of the word 0x7F800000 (the largest extended real; its value is never needed).
-/
import Idealize.ShloMosaic.PureOps.Ideal
import Idealize.ShloMosaic.PureOps.Ideal.Laws
import Idealize.ShloMosaic.Lib.ValueIdx

noncomputable section

namespace Cert.Chamfer

open Idealize.ShloMosaic Idealize.ShloMosaic.ValueIdx

/-- The shape of a cloud array: batch, point, coordinate. -/
abbrev Pts : Shape := ⟨3, ![4, 8192, 3]⟩
/-- The shape of a per-point result: batch, point. -/
abbrev Rows : Shape := ⟨2, ![4, 8192]⟩

/-- The value every minimum starts from. -/
def top32 : EReal := Ideal.ofBits .f32 0x7F800000#32

/-- The factor of the cross term in the expanded arrangement. -/
def two32 : EReal := Ideal.ofBits .f32 0x40000000#32

/-- Squared distance, coordinate by coordinate, accumulated from zero. -/
def sq (x y : Pts.Idx → EReal) (b : Fin 4) (n m : Fin 8192) : EReal :=
  0 + (x (ix3 b n 0) - y (ix3 b m 0)) * (x (ix3 b n 0) - y (ix3 b m 0))
    + (x (ix3 b n 1) - y (ix3 b m 1)) * (x (ix3 b n 1) - y (ix3 b m 1))
    + (x (ix3 b n 2) - y (ix3 b m 2)) * (x (ix3 b n 2) - y (ix3 b m 2))

/-- Squared distance, expanded: the two squared norms minus twice the inner product. -/
def sqExp (x y : Pts.Idx → EReal) (b : Fin 4) (n m : Fin 8192) : EReal :=
  ((0 + ∑ k : Fin 3, x (ix3 b n k) * x (ix3 b n k)) + (0 + ∑ k : Fin 3, y (ix3 b m k) * y (ix3 b m k)))
    - two32 * ∑ k : Fin 3, x (ix3 b n k) * y (ix3 b m k)

/-- For each point of the first cloud, the least distance to the second cloud. -/
def rowMinOf (D : Fin 4 → Fin 8192 → Fin 8192 → EReal) : Rows.Idx → EReal :=
  fun i => (Finset.univ : Finset (Fin 8192)).fold min top32 (fun m => D (i 0) (i 1) m)

/-- For each point of the second cloud, the least distance to the first cloud. -/
def colMinOf (D : Fin 4 → Fin 8192 → Fin 8192 → EReal) : Rows.Idx → EReal :=
  fun i => (Finset.univ : Finset (Fin 8192)).fold min top32 (fun n => D (i 0) n (i 1))

end Cert.Chamfer

end
-- ==== Proof.Payload.lean ====
/-
  The arithmetic of one grid step, read at an index, over the extended reals.

  A step holds a block of 512 points of the first cloud and a block of 1024 points of the second. Its table of squared
  distances has, at row r and column q, the sum over the three coordinates of the squared difference, accumulated from
  zero: each coordinate's column of the first block is spread along the rows, each coordinate's column of the second
  block is laid out as a row and spread down the columns. The minimum over the columns of row r and the minimum over the
  rows of column q are folds of `min` from the start value; the running minima are the binary minimum of what was
  there and the tile's minimum, entry by entry.
-/
import proofs.«145213_j42795054137808_2_alg».proof.Proof.Gen.KernelIdeal.Skeleton
import proofs.«145213_j42795054137808_2_alg».proof.Proof.MinLaws
import proofs.«145213_j42795054137808_2_alg».proof.Proof.Dist
import Idealize.ShloMosaic.Lib.ValueLayout
import Idealize.ShloMosaic.Lib.Pipeline.Value
import Idealize.ShloMosaic.Lib.ValueIdx
import Idealize.ShloMosaic.PureOps.Ideal.Laws
import Idealize.ShloMosaic.PureOps.Reduce

noncomputable section

namespace Cert.KernelIdeal.Pay

open Cert.KernelIdeal Cert.KernelIdeal.Gen Idealize.ShloMosaic Idealize.ShloMosaic.ValueIdx Cert.Chamfer

/-! ## Two layout operations read at an index -/

section Layout
variable {α : Type}

/-- A column spread along the rows: an `[a, 1]` array broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column flattened: an `[a, 1]` array cast to `[a]` reads, at `i`, the column's entry `i`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

end Layout

/-! ## The tile of squared distances -/

/-- Coordinate `d` of the first block's point `r`, spread along row `r`. -/
theorem spreadRow (o : ℕ) (hc : S1x512x3.ShapeCasts S512x3) (hsl : S512x3.Slices ![0, o] S512x1)
    (hb : S512x1.Broadcasts S512x1024) (d : Fin 3) (hd : d.val = o) (x0 : Vec Ideal S1x512x3 .f32)
    (r : Fin 512) (q : Fin 1024) :
    broadcastTo S512x1024 (extractStridedSlice S512x1 ![0, o] (shapeCast S512x3 x0 hc) hsl) hb (ix2 r q)
      = x0 (ix3 (0 : Fin 1) r d) := by
  rw [broadcastTo_a1_ab_apply, slice2_axis1_apply o _ hsl r (0 : Fin 1) d (by show d.val = o + 0; omega),
    shapeCast_1ab_ab_apply]

/-- Coordinate `d` of the second block's point `q`, spread down column `q`. -/
theorem spreadCol (o : ℕ) (hc : S1x1024x3.ShapeCasts S1024x3) (hsl : S1024x3.Slices ![0, o] S1024x1)
    (h1 : S1024x1.ShapeCasts S1024) (h2 : S1024.ShapeCasts S1x1024) (hb : S1x1024.Broadcasts S512x1024)
    (d : Fin 3) (hd : d.val = o) (x1 : Vec Ideal S1x1024x3 .f32) (r : Fin 512) (q : Fin 1024) :
    broadcastTo S512x1024
        (shapeCast S1x1024 (shapeCast S1024 (extractStridedSlice S1024x1 ![0, o] (shapeCast S1024x3 x1 hc) hsl) h1) h2)
        hb (ix2 r q)
      = x1 (ix3 (0 : Fin 1) q d) := by
  rw [broadcastTo_1b_ab_apply, shapeCast_a_1a_apply, shapeCast_a1_a_apply,
    slice2_axis1_apply o _ hsl q (0 : Fin 1) d (by show d.val = o + 0; omega), shapeCast_1ab_ab_apply]

/-- The tile's squared distance between point `r` of the first block and point `q` of the second. -/
def tileSq (x0 : Vec Ideal S1x512x3 .f32) (x1 : Vec Ideal S1x1024x3 .f32) (r : Fin 512) (q : Fin 1024) : EReal :=
  Ideal.ofBits .f32 0x00000000#32
    + (x0 (ix3 (0 : Fin 1) r 0) - x1 (ix3 (0 : Fin 1) q 0)) * (x0 (ix3 (0 : Fin 1) r 0) - x1 (ix3 (0 : Fin 1) q 0))
    + (x0 (ix3 (0 : Fin 1) r 1) - x1 (ix3 (0 : Fin 1) q 1)) * (x0 (ix3 (0 : Fin 1) r 1) - x1 (ix3 (0 : Fin 1) q 1))
    + (x0 (ix3 (0 : Fin 1) r 2) - x1 (ix3 (0 : Fin 1) q 2)) * (x0 (ix3 (0 : Fin 1) r 2) - x1 (ix3 (0 : Fin 1) q 2))

/-- The step's table of distances at `(r, q)`. -/
theorem pay7_apply (x0 : Vec Ideal S1x512x3 .f32) (x1 : Vec Ideal S1x1024x3 .f32) (r : Fin 512) (q : Fin 1024) :
    k0_pay7 (F := Ideal) x0 x1 (ix2 r q) = tileSq x0 x1 r q := by
  unfold tileSq
  rw [← spreadRow 0 shapeCasts_S1x512x3_S512x3 slices_S512x3_o0_0_S512x1 broadcasts_S512x1_S512x1024 0 rfl x0 r q,
    ← spreadRow 1 shapeCasts_S1x512x3_S512x3 slices_S512x3_o0_1_S512x1 broadcasts_S512x1_S512x1024 1 rfl x0 r q,
    ← spreadRow 2 shapeCasts_S1x512x3_S512x3 slices_S512x3_o0_2_S512x1 broadcasts_S512x1_S512x1024 2 rfl x0 r q,
    ← spreadCol 0 shapeCasts_S1x1024x3_S1024x3 slices_S1024x3_o0_0_S1024x1 shapeCasts_S1024x1_S1024 shapeCasts_S1024_S1x1024
        broadcasts_S1x1024_S512x1024 0 rfl x1 r q,
    ← spreadCol 1 shapeCasts_S1x1024x3_S1024x3 slices_S1024x3_o0_1_S1024x1 shapeCasts_S1024x1_S1024 shapeCasts_S1024_S1x1024
        broadcasts_S1x1024_S512x1024 1 rfl x1 r q,
    ← spreadCol 2 shapeCasts_S1x1024x3_S1024x3 slices_S1024x3_o0_2_S1024x1 shapeCasts_S1024x1_S1024 shapeCasts_S1024_S1x1024
        broadcasts_S1x1024_S512x1024 2 rfl x1 r q]
  rfl

/-! ## The tile's two minima -/

/-- The minimum over the columns of row `r`: the fold of `min` over the 1024 columns. -/
theorem rowMin_apply (v : FVec Ideal S512x1024 .f32) (h : S512x1024.Reduces [1] S512) (hφ : FKind.Formats .f32)
    (hacc : (0x7F800000#32 : BitVec FTy.f32.bits) = FKind.minimumf.neutral .f32 hφ) (r : Fin 512) :
    multiReduction .minimumf [1] S512 v 0x7F800000#32 h hφ hacc (ix1 r)
      = (Finset.univ : Finset (Fin 1024)).fold min top32 (fun q => v (ix2 r q)) := by
  refine (multiReduction_minimumf_eq_fold v _ h hφ hacc (ix1 r)).trans ?_
  refine (h.fold_filter_drop_single _ _ v (ix1 r)).trans ?_
  refine Finset.fold_congr fun q _ => ?_
  show v (h.lift (ix1 r) q) = v (ix2 r q)
  refine congrArg v (funext fun a => Fin.ext ?_)
  rw [h.lift_val]
  match a with
  | ⟨0, _⟩ => rfl
  | ⟨1, _⟩ => rfl

/-- The minimum over the rows of column `q`: the fold of `min` over the 512 rows. -/
theorem colMin_apply (v : FVec Ideal S512x1024 .f32) (h : S512x1024.Reduces [0] S1024) (hφ : FKind.Formats .f32)
    (hacc : (0x7F800000#32 : BitVec FTy.f32.bits) = FKind.minimumf.neutral .f32 hφ) (q : Fin 1024) :
    multiReduction .minimumf [0] S1024 v 0x7F800000#32 h hφ hacc (ix1 q)
      = (Finset.univ : Finset (Fin 512)).fold min top32 (fun r => v (ix2 r q)) := by
  refine (multiReduction_minimumf_eq_fold v _ h hφ hacc (ix1 q)).trans ?_
  refine (h.fold_filter_drop_single _ _ v (ix1 q)).trans ?_
  refine Finset.fold_congr fun r _ => ?_
  show v (h.lift (ix1 q) r) = v (ix2 r q)
  refine congrArg v (funext fun a => Fin.ext ?_)
  rw [h.lift_val]
  match a with
  | ⟨0, _⟩ => rfl
  | ⟨1, _⟩ => rfl

/-! ## The running minima, the copies and the resets -/

/-- The tile's row minima over the step's table. -/
theorem pay8_apply (x0 : Vec Ideal S1x512x3 .f32) (x1 : Vec Ideal S1x1024x3 .f32) (r : Fin 512) :
    k0_pay8 (F := Ideal) x0 x1 (ix1 r) = (Finset.univ : Finset (Fin 1024)).fold min top32 (fun q => tileSq x0 x1 r q) := by
  unfold k0_pay8
  refine (rowMin_apply _ _ _ _ r).trans ?_
  exact Finset.fold_congr fun q _ => pay7_apply x0 x1 r q

/-- The row buffer's update: entry `r` becomes the minimum of what it held and the tile's row minimum. -/
theorem pay1_apply (v40 : FVec Ideal S512 .f32) (v42 : Vec Ideal S1x512 .f32) (r : Fin 512) :
    k0_pay1 (F := Ideal) v40 v42 (ix2 (0 : Fin 1) r) = min (v42 (ix2 (0 : Fin 1) r)) (v40 (ix1 r)) := by
  show shapeCast S1x512 (minimumf v42 (shapeCast S1x512 v40 shapeCasts_S512_S1x512)) shapeCasts_S1x512_S1x512 (ix2 (0 : Fin 1) r) = _
  rw [shapeCast_self]
  show min (v42 (ix2 (0 : Fin 1) r)) (shapeCast S1x512 v40 shapeCasts_S512_S1x512 (ix2 (0 : Fin 1) r)) = _
  rw [shapeCast_a_1a_apply]

/-- The column buffer's update under the current block: entry `q` of the block becomes the minimum of what it held and the
    tile's column minimum. -/
theorem pay2_apply (v39 : FVec Ideal S512x1024 .f32) (v51 : Vec Ideal S1x1024 .f32) (q : Fin 1024) :
    k0_pay2 (F := Ideal) v39 v51 (ix2 (0 : Fin 1) q)
      = min (v51 (ix2 (0 : Fin 1) q)) ((Finset.univ : Finset (Fin 512)).fold min top32 (fun r => v39 (ix2 r q))) := by
  show shapeCast S1x1024 (minimumf v51 (shapeCast S1x1024
      (multiReduction .minimumf [0] S1024 v39 0x7F800000#32 reduces_S512x1024_S1024 (.inl rfl) rfl) shapeCasts_S1024_S1x1024))
    shapeCasts_S1x1024_S1x1024 (ix2 (0 : Fin 1) q) = _
  rw [shapeCast_self]
  show min (v51 (ix2 (0 : Fin 1) q)) (shapeCast S1x1024 (multiReduction .minimumf [0] S1024 v39 0x7F800000#32
      reduces_S512x1024_S1024 (.inl rfl) rfl) shapeCasts_S1024_S1x1024 (ix2 (0 : Fin 1) q)) = _
  rw [shapeCast_a_1a_apply]
  exact congrArg (min (v51 (ix2 (0 : Fin 1) q))) (colMin_apply v39 _ _ _ q)

/-- The copy of the row buffer into the first output block. -/
theorem pay3_apply (v : Vec Ideal S1x512 .f32) (r : Fin 512) :
    k0_pay3 (F := Ideal) v (ix3 (0 : Fin 1) (0 : Fin 1) r) = v (ix2 (0 : Fin 1) r) :=
  shapeCast_ab_1ab_apply v shapeCasts_S1x512_S1x1x512 (0 : Fin 1) (0 : Fin 1) r

/-- The copy of the column buffer into the second output block. -/
theorem pay4_apply (v : Vec Ideal S1x8192 .f32) (q : Fin 8192) :
    k0_pay4 (F := Ideal) v (ix3 (0 : Fin 1) (0 : Fin 1) q) = v (ix2 (0 : Fin 1) q) :=
  shapeCast_ab_1ab_apply v shapeCasts_S1x8192_S1x1x8192 (0 : Fin 1) (0 : Fin 1) q

/-- The column buffer's reset: every entry the start value. -/
theorem pay5_apply (y : S1x8192.Idx) : k0_pay5 (F := Ideal) y = top32 :=
  congrFun (shapeCast_self (broadcast S1x8192 (Scalar.ofBits (F := Ideal) .f32 0x7F800000#32)) shapeCasts_S1x8192_S1x8192) y

/-- The row buffer's reset: every entry the start value. -/
theorem pay6_apply (y : S1x512.Idx) : k0_pay6 (F := Ideal) y = top32 :=
  congrFun (shapeCast_self (broadcast S1x512 (Scalar.ofBits (F := Ideal) .f32 0x7F800000#32)) shapeCasts_S1x512_S1x512) y

end Cert.KernelIdeal.Pay

end
-- ==== Proof.Accum.lean ====
/-
  Running minima over a tiled table of distances.

  The second cloud's 8192 points are visited in 8 blocks of 1024, the first cloud's in 16 blocks of 512. For a batch
  `b`, a row block `i` and a number `jb` of column blocks already visited:
  * the row buffer is good when entry `r` is the least distance from point `i·512 + r` of the first cloud to the
    first `jb·1024` points of the second;
  * the column buffer is good when entry `q` is the least distance from point `q` of the second cloud to the first
    `(i+1)·512` points of the first cloud if `q` lies in a visited column block, to the first `i·512` otherwise.
  One step takes the entrywise minimum with the tile's row minima, and, under the current column block only, with the
  tile's column minima; it turns good buffers after `jb` blocks into good buffers after `jb + 1`. A buffer holding the
  start value is good before any block; a column buffer good after all 8 blocks of row block `i` is good before the
  first block of row block `i + 1`; after all blocks the entries are the full minima.
-/
import proofs.«145213_j42795054137808_2_alg».proof.Proof.MinLaws
import proofs.«145213_j42795054137808_2_alg».proof.Proof.Dist
import Idealize.ShloMosaic.Lib.ValueIdx

noncomputable section

namespace Cert.Chamfer

open Idealize.ShloMosaic Idealize.ShloMosaic.ValueIdx

/-- The row buffer's shape. -/
abbrev RowBuf : Shape := ⟨2, ![1, 512]⟩
/-- The column buffer's shape. -/
abbrev ColBuf : Shape := ⟨2, ![1, 8192]⟩

variable (D : Fin 4 → Fin 8192 → Fin 8192 → EReal)

/-- The row buffer after `jb` column blocks of row block `i` of batch `b`. -/
def GoodRow (b i jb : ℕ) (row : RowBuf.Idx → EReal) : Prop :=
  ∀ (bb : Fin 4) (r : Fin 512) (n : Fin 8192), bb.val = b → n.val = i * 512 + r.val →
    IsMinOver top32 (fun mm : Fin 8192 => mm.val < jb * 1024) (fun mm => D bb n mm) (row (ix2 (0 : Fin 1) r))

/-- The column buffer after `jb` column blocks of row block `i` of batch `b`. -/
def GoodCol (b i jb : ℕ) (col : ColBuf.Idx → EReal) : Prop :=
  ∀ (bb : Fin 4) (q : Fin 8192), bb.val = b →
    IsMinOver top32 (fun n : Fin 8192 => n.val < (if q.val < jb * 1024 then (i + 1) * 512 else i * 512))
      (fun n => D bb n q) (col (ix2 (0 : Fin 1) q))

variable {D}

/-- A row buffer at the start value is good before any column block. -/
theorem GoodRow.init {b i : ℕ} {row : RowBuf.Idx → EReal} (h : ∀ r : Fin 512, row (ix2 (0 : Fin 1) r) = top32) :
    GoodRow D b i 0 row := by
  intro bb r n _ _
  rw [h r]
  exact (isMinOver_none top32 _).congr_pred fun mm => ⟨fun hf => hf.elim, fun hlt => by omega⟩

/-- A column buffer at the start value is good before the first step of a batch. -/
theorem GoodCol.init {b : ℕ} {col : ColBuf.Idx → EReal} (h : ∀ q : Fin 8192, col (ix2 (0 : Fin 1) q) = top32) :
    GoodCol D b 0 0 col := by
  intro bb q _
  rw [h q]
  refine (isMinOver_none top32 _).congr_pred fun n => ⟨fun hf => hf.elim, fun hlt => ?_⟩
  rw [if_neg (by omega)] at hlt
  omega

/-- After the 8 column blocks of row block `i` the column buffer is good before the first block of row block `i + 1`. -/
theorem GoodCol.nextRowBlock {b i : ℕ} {col : ColBuf.Idx → EReal} (h : GoodCol D b i 8 col) : GoodCol D b (i + 1) 0 col := by
  intro bb q hb
  refine (h bb q hb).congr_pred fun n => ?_
  have hq := q.isLt
  rw [if_pos (by omega), if_neg (by omega)]

/-- One step on the row buffer. -/
theorem GoodRow.step {b i jb : ℕ} {row row' : RowBuf.Idx → EReal} (tile : Fin 512 → Fin 1024 → EReal)
    (h : GoodRow D b i jb row) (hjb : jb < 8)
    (htile : ∀ (bb : Fin 4) (n mm : Fin 8192) (r : Fin 512) (q : Fin 1024), bb.val = b → n.val = i * 512 + r.val →
      mm.val = jb * 1024 + q.val → tile r q = D bb n mm)
    (hrow' : ∀ r : Fin 512, row' (ix2 (0 : Fin 1) r)
      = min (row (ix2 (0 : Fin 1) r)) ((Finset.univ : Finset (Fin 1024)).fold min top32 (fun q => tile r q))) :
    GoodRow D b i (jb + 1) row' := by
  intro bb r n hb hn
  rw [hrow' r]
  have hlt : ∀ q : Fin 1024, jb * 1024 + q.val < 8192 := fun q => by have := q.isLt; omega
  have e : (fun q : Fin 1024 => tile r q) = fun q => (fun mm => D bb n mm) (⟨jb * 1024 + q.val, hlt q⟩ : Fin 8192) :=
    funext fun q => htile bb n ⟨_, hlt q⟩ r q hb hn rfl
  rw [e]
  refine (h bb r n hb hn).union (Q := fun mm : Fin 8192 => jb * 1024 ≤ mm.val ∧ mm.val < (jb + 1) * 1024)
    (isMinOver_fold top32 _ (fun q : Fin 1024 => (⟨jb * 1024 + q.val, hlt q⟩ : Fin 8192)) _ fun mm => ?_) fun mm => ?_
  · constructor
    · rintro ⟨h1, h2⟩
      exact ⟨⟨mm.val - jb * 1024, by omega⟩, Fin.ext (by show jb * 1024 + (mm.val - jb * 1024) = mm.val; omega)⟩
    · rintro ⟨q, rfl⟩
      have := q.isLt
      exact ⟨by show jb * 1024 ≤ jb * 1024 + q.val; omega, by show jb * 1024 + q.val < (jb + 1) * 1024; omega⟩
  · omega

/-- One step on the column buffer. -/
theorem GoodCol.step {b i jb : ℕ} {col col' : ColBuf.Idx → EReal} (tile : Fin 512 → Fin 1024 → EReal)
    (h : GoodCol D b i jb col) (hjb : jb < 8) (hi : i < 16)
    (htile : ∀ (bb : Fin 4) (n mm : Fin 8192) (r : Fin 512) (q : Fin 1024), bb.val = b → n.val = i * 512 + r.val →
      mm.val = jb * 1024 + q.val → tile r q = D bb n mm)
    (hin : ∀ (q : Fin 1024) (qq : Fin 8192), qq.val = jb * 1024 + q.val → col' (ix2 (0 : Fin 1) qq)
      = min (col (ix2 (0 : Fin 1) qq)) ((Finset.univ : Finset (Fin 512)).fold min top32 (fun r => tile r q)))
    (hout : ∀ qq : Fin 8192, (qq.val < jb * 1024 ∨ (jb + 1) * 1024 ≤ qq.val) → col' (ix2 (0 : Fin 1) qq) = col (ix2 (0 : Fin 1) qq)) :
    GoodCol D b i (jb + 1) col' := by
  intro bb qq hb
  by_cases hq : jb * 1024 ≤ qq.val ∧ qq.val < (jb + 1) * 1024
  · have hq' : qq.val - jb * 1024 < 1024 := by omega
    rw [hin ⟨qq.val - jb * 1024, hq'⟩ qq (by show qq.val = jb * 1024 + (qq.val - jb * 1024); omega)]
    have hlt : ∀ r : Fin 512, i * 512 + r.val < 8192 := fun r => by have := r.isLt; omega
    have e : (fun r : Fin 512 => tile r ⟨qq.val - jb * 1024, hq'⟩)
        = fun r => (fun n => D bb n qq) (⟨i * 512 + r.val, hlt r⟩ : Fin 8192) :=
      funext fun r => htile bb ⟨_, hlt r⟩ qq r ⟨_, hq'⟩ hb rfl (by show qq.val = jb * 1024 + (qq.val - jb * 1024); omega)
    rw [e]
    refine (h bb qq hb).union (Q := fun n : Fin 8192 => i * 512 ≤ n.val ∧ n.val < (i + 1) * 512)
      (isMinOver_fold top32 _ (fun r : Fin 512 => (⟨i * 512 + r.val, hlt r⟩ : Fin 8192)) _ fun n => ?_) fun n => ?_
    · constructor
      · rintro ⟨h1, h2⟩
        exact ⟨⟨n.val - i * 512, by omega⟩, Fin.ext (by show i * 512 + (n.val - i * 512) = n.val; omega)⟩
      · rintro ⟨r, rfl⟩
        have := r.isLt
        exact ⟨by show i * 512 ≤ i * 512 + r.val; omega, by show i * 512 + r.val < (i + 1) * 512; omega⟩
    · rw [if_pos hq.2, if_neg (by omega)]
      omega
  · have hq' : qq.val < jb * 1024 ∨ (jb + 1) * 1024 ≤ qq.val := by omega
    rw [hout qq hq']
    refine (h bb qq hb).congr_pred fun n => ?_
    rcases hq' with hl | hg
    · rw [if_pos hl, if_pos (by omega)]
    · rw [if_neg (by omega), if_neg (by omega)]

/-- After all 8 column blocks a row-buffer entry is the least distance to the whole second cloud. -/
theorem GoodRow.final {b i : ℕ} {row : RowBuf.Idx → EReal} (h : GoodRow D b i 8 row) (bb : Fin 4) (r : Fin 512)
    (n : Fin 8192) (hb : bb.val = b) (hn : n.val = i * 512 + r.val) :
    row (ix2 (0 : Fin 1) r) = rowMinOf D (ix2 bb n) :=
  ((h bb r n hb hn).congr_pred (Q := fun _ => True) fun mm =>
    ⟨fun _ => trivial, fun _ => by have := mm.isLt; omega⟩).eq_fold

/-- After all 8 column blocks of the last row block a column-buffer entry is the least distance to the whole first cloud. -/
theorem GoodCol.final {b : ℕ} {col : ColBuf.Idx → EReal} (h : GoodCol D b 15 8 col) (bb : Fin 4) (q : Fin 8192)
    (hb : bb.val = b) : col (ix2 (0 : Fin 1) q) = colMinOf D (ix2 bb q) :=
  ((h bb q hb).congr_pred (Q := fun _ => True) fun n =>
    ⟨fun _ => trivial, fun _ => by have := n.isLt; have := q.isLt; rw [if_pos (by omega)]; omega⟩).eq_fold

end Cert.Chamfer

end
-- ==== Proof.Step.lean ====
/-
  One grid step as a step of the accumulation.

  Grid point t is (batch, row block, column block) = (t / 128, t mod 128 / 8, t mod 8). Its first input block holds the
  512 points of row block i of batch b of the first cloud, its second the 1024 points of column block j of batch b of the
  second cloud, so the tile's distance at (r, q) is the table's entry at (b, i·512 + r, j·1024 + q). Whatever the
  buffers held before the step, if they were good after j column blocks, then the buffers the step leaves — the
  entrywise minimum with the tile's row minima; under the current column block the entrywise minimum with the tile's
  column minima, elsewhere unchanged — are good after j + 1.
-/
import proofs.«145213_j42795054137808_2_alg».proof.Proof.Pieces
import proofs.«145213_j42795054137808_2_alg».proof.Proof.Payload
import proofs.«145213_j42795054137808_2_alg».proof.Proof.Accum
import Idealize.ShloMosaic.Lib.Pipeline.Value
import Idealize.ShloMosaic.PureOps.Ideal.Laws

set_option maxRecDepth 16384

noncomputable section

namespace Cert.KernelIdeal.Step

open Idealize.ShloMosaic Idealize.ShloMosaic.TcCoe Idealize.SL.Sem Idealize.ShloMosaic.ValueIdx
open Cert.KernelIdeal Cert.KernelIdeal.Gen Cert.Chamfer Cert.KernelIdeal.Pay Cert.KernelIdeal.Pieces

variable (m : (ℓ : Loc nD τ sig) → Buf (Elt Ideal) ℓ)

/-- The first cloud as the region finds it. -/
abbrev X (c : Dev nD) : Pts.Idx → EReal := V m c main_arg0
/-- The second cloud as the region finds it. -/
abbrev Y (c : Dev nD) : Pts.Idx → EReal := V m c main_arg1
/-- The table of squared distances between the two clouds. -/
abbrev D (c : Dev nD) : Fin 4 → Fin 8192 → Fin 8192 → EReal := sq (X m c) (Y m c)

/-- A grid point's coordinates. -/
theorem coords_val : ∀ t : Fin cfg0.N, ((grid0.coords t) 0).val = t.val / 128 ∧ ((grid0.coords t) 1).val = t.val % 128 / 8
    ∧ ((grid0.coords t) 2).val = t.val % 8 :=
  (by decide +kernel : ∀ t : Fin grid0.N, ((grid0.coords t) 0).val = t.val / 128 ∧ ((grid0.coords t) 1).val = t.val % 128 / 8
    ∧ ((grid0.coords t) 2).val = t.val % 8)

/-- The first input's block index at a grid point: (batch, row block, 0). -/
theorem idx0_val : ∀ t : Fin cfg0.N, win0_0.index t 0 = t.val / 128 ∧ win0_0.index t 1 = t.val % 128 / 8 ∧ win0_0.index t 2 = 0 :=
  (by decide +kernel : ∀ t : Fin grid0.N, win0_0.index t 0 = t.val / 128 ∧ win0_0.index t 1 = t.val % 128 / 8 ∧ win0_0.index t 2 = 0)

/-- The second input's block index at a grid point: (batch, column block, 0). -/
theorem idx1_val : ∀ t : Fin cfg0.N, win0_1.index t 0 = t.val / 128 ∧ win0_1.index t 1 = t.val % 8 ∧ win0_1.index t 2 = 0 :=
  (by decide +kernel : ∀ t : Fin grid0.N, win0_1.index t 0 = t.val / 128 ∧ win0_1.index t 1 = t.val % 8 ∧ win0_1.index t 2 = 0)

/-- Point `r` of the first input block is point `i·512 + r` of batch `b` of the first cloud. -/
theorem iblk0_apply (c : Dev nD) (t : Fin cfg0.N) (r : Fin 512) (d : Fin 3) (bb : Fin 4) (n : Fin 8192)
    (hb : bb.val = t.val / 128) (hn : n.val = t.val % 128 / 8 * 512 + r.val) :
    (iblk m c 0 t : Vec Ideal S1x512x3 .f32) (ix3 (0 : Fin 1) r d) = X m c (ix3 bb n d) := by
  obtain ⟨h0, h1, h2⟩ := idx0_val t
  unfold iblk
  rw [View.read_apply]
  show V m c main_arg0 _ = V m c main_arg0 _
  congr 1
  funext a
  apply Fin.ext
  match a with
  | ⟨0, _⟩ => show win0_0.index t 0 * 1 + 1 * 0 = bb.val; rw [h0, hb]; omega
  | ⟨1, _⟩ => show win0_0.index t 1 * 512 + 1 * r.val = n.val; rw [h1, hn]; omega
  | ⟨2, _⟩ => show win0_0.index t 2 * 3 + 1 * d.val = d.val; rw [h2]; omega

/-- Point `q` of the second input block is point `j·1024 + q` of batch `b` of the second cloud. -/
theorem iblk1_apply (c : Dev nD) (t : Fin cfg0.N) (q : Fin 1024) (d : Fin 3) (bb : Fin 4) (mm : Fin 8192)
    (hb : bb.val = t.val / 128) (hm : mm.val = t.val % 8 * 1024 + q.val) :
    (iblk m c 1 t : Vec Ideal S1x1024x3 .f32) (ix3 (0 : Fin 1) q d) = Y m c (ix3 bb mm d) := by
  obtain ⟨h0, h1, h2⟩ := idx1_val t
  unfold iblk
  rw [View.read_apply]
  show V m c main_arg1 _ = V m c main_arg1 _
  congr 1
  funext a
  apply Fin.ext
  match a with
  | ⟨0, _⟩ => show win0_1.index t 0 * 1 + 1 * 0 = bb.val; rw [h0, hb]; omega
  | ⟨1, _⟩ => show win0_1.index t 1 * 1024 + 1 * q.val = mm.val; rw [h1, hm]; omega
  | ⟨2, _⟩ => show win0_1.index t 2 * 3 + 1 * d.val = d.val; rw [h2]; omega

/-- The tile's distance is the table's entry. -/
theorem tile_eq (c : Dev nD) (t : Fin cfg0.N) (bb : Fin 4) (n mm : Fin 8192) (r : Fin 512) (q : Fin 1024)
    (hb : bb.val = t.val / 128) (hn : n.val = t.val % 128 / 8 * 512 + r.val) (hm : mm.val = t.val % 8 * 1024 + q.val) :
    tileSq (iblk m c 0 t) (iblk m c 1 t) r q = D m c bb n mm := by
  unfold tileSq
  rw [iblk0_apply m c t r 0 bb n hb hn, iblk0_apply m c t r 1 bb n hb hn, iblk0_apply m c t r 2 bb n hb hn,
    iblk1_apply m c t q 0 bb mm hb hm, iblk1_apply m c t q 1 bb mm hb hm, iblk1_apply m c t q 2 bb mm hb hm,
    Ideal.ofBits_zero_f32]
  rfl

/-- A load of the current column block reads the column buffer's entries under the block. -/
theorem colLoad_apply (i : grid0.Coords) (xs1 : Vec Ideal S1x8192 .f32) (x : S1x1024.Idx) (y : S1x8192.Idx)
    (hx : ∀ a, (y a).val = colOff i a + (x a).val) : colLoad i xs1 x = xs1 y := by
  show xs1 ((Rect.unit (s := S1x8192) (k0_off1 i) S1x1024.size (k0_off1_inb i)).emb x) = xs1 y
  refine congrArg xs1 (funext fun a => Fin.ext ?_)
  show k0_off1 i a + 1 * (x a).val = (y a).val
  rw [k0_off1_eq i, hx a, Nat.one_mul]

/-- Any step: from its two running-minimum buffers as functions of what they held, good buffers stay good. -/
theorem stepAccum (c : Dev nD) (t : Fin cfg0.N) (xs0 row' : Vec Ideal S1x512 .f32) (xs1 col' : Vec Ideal S1x8192 .f32)
    (hr : row' = k0_pay1 (k0_pay8 (iblk m c 0 t) (iblk m c 1 t)) xs0)
    (hcin : ∀ (y : S1x8192.Idx) (x : S1x1024.Idx), (∀ a, (y a).val = colOff (grid0.coords t) a + (x a).val) →
      col' y = k0_pay2 (k0_pay7 (iblk m c 0 t) (iblk m c 1 t)) (colLoad (grid0.coords t) xs1) x)
    (hcout : ∀ y : S1x8192.Idx, ((y 1).val < colOff (grid0.coords t) 1 ∨ colOff (grid0.coords t) 1 + 1024 ≤ (y 1).val) →
      col' y = xs1 y)
    (gr : GoodRow (D m c) (t.val / 128) (t.val % 128 / 8) (t.val % 8) xs0)
    (gc : GoodCol (D m c) (t.val / 128) (t.val % 128 / 8) (t.val % 8) xs1) :
    GoodRow (D m c) (t.val / 128) (t.val % 128 / 8) (t.val % 8 + 1) row'
      ∧ GoodCol (D m c) (t.val / 128) (t.val % 128 / 8) (t.val % 8 + 1) col' := by
  obtain ⟨c0, c1, c2⟩ := coords_val t
  have hN : t.val < 512 := lt_of_lt_of_eq t.isLt (show cfg0.N = 512 from N_0)
  constructor
  · refine gr.step (fun r q => tileSq (iblk m c 0 t) (iblk m c 1 t) r q) (by omega)
      (fun bb n mm r q hb hn hm => tile_eq m c t bb n mm r q hb hn hm) (fun r => ?_)
    rw [hr, pay1_apply, pay8_apply]
  · refine gc.step (fun r q => tileSq (iblk m c 0 t) (iblk m c 1 t) r q) (by omega) (by omega)
      (fun bb n mm r q hb hn hm => tile_eq m c t bb n mm r q hb hn hm) (fun q qq hqq => ?_) (fun qq hqq => ?_)
    · have hx : ∀ a, ((ix2 (0 : Fin 1) qq : S1x8192.Idx) a).val
          = colOff (grid0.coords t) a + ((ix2 (0 : Fin 1) q : S1x1024.Idx) a).val := fun a => by
        match a with
        | ⟨0, _⟩ => rfl
        | ⟨1, _⟩ => show qq.val = 1024 * ((grid0.coords t) 2).val + q.val; rw [c2, hqq]; omega
      rw [hcin _ _ hx, pay2_apply, colLoad_apply _ _ _ _ hx]
      exact congrArg (min (xs1 (ix2 (0 : Fin 1) qq))) (Finset.fold_congr fun r _ => pay7_apply _ _ r q)
    · refine hcout _ ?_
      show qq.val < 1024 * ((grid0.coords t) 2).val ∨ 1024 * ((grid0.coords t) 2).val + 1024 ≤ qq.val
      rw [c2]
      omega

end Cert.KernelIdeal.Step

end
-- ==== Proof.Blocks.lean ====
/-
  From the blocks the grid's points write back to the two whole result arrays.

  The grid has 4 × 16 × 8 points; point t = b·128 + i·8 + j works on batch b, on the i-th group of 512 points of the
  first cloud and on the j-th group of 1024 points of the second.  The first result array, of shape [4, 1, 8192], is
  written back in blocks of shape [1, 1, 512]: block (b, 0, i), after the last j of each (b, i), that is at the points
  with t mod 8 = 7.  The second result array, of the same shape, is written back in blocks of shape [1, 1, 8192]:
  block (b, 0, 0), after the last (i, j) of each b, that is at the points with t mod 128 = 127.
  An entry r of block (b, 0, i) of the first array is entry (b, 0, i·512 + r) of the array, and entry q of block
  (b, 0, 0) of the second is entry (b, 0, q).  So if what each writing point leaves in its block agrees, entry by
  entry, with one function G of the array's indices, then — every index of the array lying in exactly the block of
  the point (b, n / 512, 7), respectively (b, 15, 7) — the array ends holding G.
-/
import proofs.«145213_j42795054137808_2_alg».proof.Proof.Gen.KernelIdeal.Frame
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.ValueIdx
open Idealize.ShloMosaic.TcCoe Idealize.SL.Sem
open Idealize.ShloMosaic.Pipeline (Dat)

variable (m : (ℓ : Loc nD τ sig) → Buf (Elt Ideal) ℓ)

/-- The block index of the first result's window at point t: (t / 128, 0, t mod 128 / 8). -/
theorem index2 : ∀ t : Fin cfg0.N, win0_2.index t (0 : Fin 3) = t.val / 128 ∧ win0_2.index t (1 : Fin 3) = 0
    ∧ win0_2.index t (2 : Fin 3) = t.val % 128 / 8 :=
  (by decide +kernel : ∀ t : Fin grid0.N, win0_2.index t (0 : Fin 3) = t.val / 128 ∧ win0_2.index t (1 : Fin 3) = 0
    ∧ win0_2.index t (2 : Fin 3) = t.val % 128 / 8)

/-- The block index of the second result's window at point t: (t / 128, 0, 0). -/
theorem index3 : ∀ t : Fin cfg0.N, win0_3.index t (0 : Fin 3) = t.val / 128 ∧ win0_3.index t (1 : Fin 3) = 0
    ∧ win0_3.index t (2 : Fin 3) = 0 :=
  (by decide +kernel : ∀ t : Fin grid0.N, win0_3.index t (0 : Fin 3) = t.val / 128 ∧ win0_3.index t (1 : Fin 3) = 0
    ∧ win0_3.index t (2 : Fin 3) = 0)

/-- What a writing point of the first result writes back is its block of G. -/
theorem flushed2_eq (c : Dev nD) (G : S4x1x8192.Idx → EReal)
    (hrow : ∀ (t : Fin cfg0.N), t.val % 8 = 7 → ∀ (r : Fin 512) (b : Fin 4) (n : Fin 8192), b.val = t.val / 128 →
        n.val = (t.val % 128 / 8) * 512 + r.val →
        (outsAt0 (F := Ideal) m c t.val t.isLt).1 (ix3 (0 : Fin 1) (0 : Fin 1) r) = G (ix3 b (0 : Fin 1) n))
    (t : Fin cfg0.N) (hf : (cfg0.win 2).flush t = true) :
    (dats (F := Ideal) m 0 c).flushed 2 t = ((cfg0.win 2).blk t).view.read (Elt Ideal) G := by
  have h7 : t.val % 8 = 7 := (flush0_2 t).mp hf
  have hN : t.val < 512 := lt_of_lt_of_eq t.isLt (show cfg0.N = 512 from N_0)
  obtain ⟨e0, e1, e2⟩ := index2 t
  show (cfg0.win 2).cut (grid0.coords t) ((dats (F := Ideal) m 0 c).after 2 t) = _
  rw [after0_2]
  funext y
  have hy0 : (y 0).val < 1 := (y 0).isLt
  have hy1 : (y 1).val < 1 := (y 1).isLt
  have hy2 : (y 2).val < 512 := (y 2).isLt
  have hidx : (cfg0.win 2).xinj (grid0.coords t) y = ix3 (0 : Fin 1) (0 : Fin 1) (⟨(y 2).val, hy2⟩ : Fin 512) := by
    funext a; apply Fin.ext
    match a with
    | ⟨0, _⟩ => show (y 0).val = 0; omega
    | ⟨1, _⟩ => show (y 1).val = 0; omega
    | ⟨2, _⟩ => rfl
  show (outsAt0 (F := Ideal) m c t.val t.isLt).1 ((cfg0.win 2).xinj (grid0.coords t) y)
      = G (((cfg0.win 2).blk t).view.emb y)
  refine (congrArg (outsAt0 (F := Ideal) m c t.val t.isLt).1 hidx).trans ?_
  refine (hrow t h7 ⟨(y 2).val, hy2⟩ ⟨t.val / 128, by omega⟩ ⟨(t.val % 128 / 8) * 512 + (y 2).val, by omega⟩ rfl rfl).trans ?_
  refine congrArg G (funext fun a => Fin.ext ?_)
  match a with
  | ⟨0, _⟩ => show t.val / 128 = win0_2.index t (0 : Fin 3) * 1 + 1 * (y 0).val; omega
  | ⟨1, _⟩ => show 0 = win0_2.index t (1 : Fin 3) * 1 + 1 * (y 1).val; omega
  | ⟨2, _⟩ => show (t.val % 128 / 8) * 512 + (y 2).val = win0_2.index t (2 : Fin 3) * 512 + 1 * (y 2).val; omega

/-- An index of the first result array lies in point t's block iff each coordinate is in the block's range. -/
theorem mem_blk2 (t : Fin cfg0.N) (i : S4x1x8192.Idx) :
    i ∈ ((cfg0.win 2).blk t).view.set ↔ ∀ a : Fin 3, win0_2.index t a * S1x1x512.size a ≤ (i a).val
      ∧ (i a).val < win0_2.index t a * S1x1x512.size a + S1x1x512.size a := by
  show i ∈ ((View.whole main_call0_v0_0).slice (win0_2.rect t)).set ↔ _
  rw [View.set_slice_whole, Rect.mem_set_unit]
  exact Iff.rfl

/-- The first result array after the run: G, when every writing point's block agrees with G. -/
theorem final2 (c : Dev nD) (G : S4x1x8192.Idx → EReal)
    (hrow : ∀ (t : Fin cfg0.N), t.val % 8 = 7 → ∀ (r : Fin 512) (b : Fin 4) (n : Fin 8192), b.val = t.val / 128 →
        n.val = (t.val % 128 / 8) * 512 + r.val →
        (outsAt0 (F := Ideal) m c t.val t.isLt).1 (ix3 (0 : Fin 1) (0 : Fin 1) r) = G (ix3 b (0 : Fin 1) n)) :
    (dats (F := Ideal) m 0 c).arrAt 2 cfg0.N = G :=
  (dats (F := Ideal) m 0 c).arrAt_eq_of_cover 2 G (fun t hf => flushed2_eq m c G hrow t hf) fun i => by
    have hi0 : (i 0).val < 4 := (i 0).isLt
    have hi1 : (i 1).val < 1 := (i 1).isLt
    have hi2 : (i 2).val < 8192 := (i 2).isLt
    have hN : cfg0.N = 512 := N_0
    have ht : (i 0).val * 128 + (i 2).val / 512 * 8 + 7 < cfg0.N := by omega
    refine ⟨⟨(i 0).val * 128 + (i 2).val / 512 * 8 + 7, ht⟩, (flush0_2 _).mpr (by show ((i 0).val * 128 + (i 2).val / 512 * 8 + 7) % 8 = 7; omega), ?_⟩
    obtain ⟨e0, e1, e2⟩ := index2 ⟨(i 0).val * 128 + (i 2).val / 512 * 8 + 7, ht⟩
    rw [mem_blk2]
    intro a
    match a with
    | ⟨0, _⟩ =>
      show win0_2.index ⟨(i 0).val * 128 + (i 2).val / 512 * 8 + 7, ht⟩ (0 : Fin 3) * 1 ≤ (i 0).val
        ∧ (i 0).val < win0_2.index ⟨(i 0).val * 128 + (i 2).val / 512 * 8 + 7, ht⟩ (0 : Fin 3) * 1 + 1
      rw [e0]; show ((i 0).val * 128 + (i 2).val / 512 * 8 + 7) / 128 * 1 ≤ _ ∧ _ < ((i 0).val * 128 + (i 2).val / 512 * 8 + 7) / 128 * 1 + 1; omega
    | ⟨1, _⟩ =>
      show win0_2.index ⟨(i 0).val * 128 + (i 2).val / 512 * 8 + 7, ht⟩ (1 : Fin 3) * 1 ≤ (i 1).val
        ∧ (i 1).val < win0_2.index ⟨(i 0).val * 128 + (i 2).val / 512 * 8 + 7, ht⟩ (1 : Fin 3) * 1 + 1
      rw [e1]; omega
    | ⟨2, _⟩ =>
      show win0_2.index ⟨(i 0).val * 128 + (i 2).val / 512 * 8 + 7, ht⟩ (2 : Fin 3) * 512 ≤ (i 2).val
        ∧ (i 2).val < win0_2.index ⟨(i 0).val * 128 + (i 2).val / 512 * 8 + 7, ht⟩ (2 : Fin 3) * 512 + 512
      rw [e2]; show ((i 0).val * 128 + (i 2).val / 512 * 8 + 7) % 128 / 8 * 512 ≤ _ ∧ _ < ((i 0).val * 128 + (i 2).val / 512 * 8 + 7) % 128 / 8 * 512 + 512; omega

/-- What a writing point of the second result writes back is its block of G. -/
theorem flushed3_eq (c : Dev nD) (G : S4x1x8192.Idx → EReal)
    (hcol : ∀ (t : Fin cfg0.N), t.val % 128 = 127 → ∀ (q : Fin 8192) (b : Fin 4), b.val = t.val / 128 →
        (outsAt0 (F := Ideal) m c t.val t.isLt).2.1 (ix3 (0 : Fin 1) (0 : Fin 1) q) = G (ix3 b (0 : Fin 1) q))
    (t : Fin cfg0.N) (hf : (cfg0.win 3).flush t = true) :
    (dats (F := Ideal) m 0 c).flushed 3 t = ((cfg0.win 3).blk t).view.read (Elt Ideal) G := by
  have h127 : t.val % 128 = 127 := (flush0_3 t).mp hf
  have hN : t.val < 512 := lt_of_lt_of_eq t.isLt (show cfg0.N = 512 from N_0)
  obtain ⟨e0, e1, e2⟩ := index3 t
  show (cfg0.win 3).cut (grid0.coords t) ((dats (F := Ideal) m 0 c).after 3 t) = _
  rw [after0_3]
  funext y
  have hy0 : (y 0).val < 1 := (y 0).isLt
  have hy1 : (y 1).val < 1 := (y 1).isLt
  have hy2 : (y 2).val < 8192 := (y 2).isLt
  have hidx : (cfg0.win 3).xinj (grid0.coords t) y = ix3 (0 : Fin 1) (0 : Fin 1) (⟨(y 2).val, hy2⟩ : Fin 8192) := by
    funext a; apply Fin.ext
    match a with
    | ⟨0, _⟩ => show (y 0).val = 0; omega
    | ⟨1, _⟩ => show (y 1).val = 0; omega
    | ⟨2, _⟩ => rfl
  show (outsAt0 (F := Ideal) m c t.val t.isLt).2.1 ((cfg0.win 3).xinj (grid0.coords t) y)
      = G (((cfg0.win 3).blk t).view.emb y)
  refine (congrArg (outsAt0 (F := Ideal) m c t.val t.isLt).2.1 hidx).trans ?_
  refine (hcol t h127 ⟨(y 2).val, hy2⟩ ⟨t.val / 128, by omega⟩ rfl).trans ?_
  refine congrArg G (funext fun a => Fin.ext ?_)
  match a with
  | ⟨0, _⟩ => show t.val / 128 = win0_3.index t (0 : Fin 3) * 1 + 1 * (y 0).val; omega
  | ⟨1, _⟩ => show 0 = win0_3.index t (1 : Fin 3) * 1 + 1 * (y 1).val; omega
  | ⟨2, _⟩ => show (y 2).val = win0_3.index t (2 : Fin 3) * 8192 + 1 * (y 2).val; omega

/-- An index of the second result array lies in point t's block iff each coordinate is in the block's range. -/
theorem mem_blk3 (t : Fin cfg0.N) (i : S4x1x8192.Idx) :
    i ∈ ((cfg0.win 3).blk t).view.set ↔ ∀ a : Fin 3, win0_3.index t a * S1x1x8192.size a ≤ (i a).val
      ∧ (i a).val < win0_3.index t a * S1x1x8192.size a + S1x1x8192.size a := by
  show i ∈ ((View.whole main_call0_v0_1).slice (win0_3.rect t)).set ↔ _
  rw [View.set_slice_whole, Rect.mem_set_unit]
  exact Iff.rfl

/-- The second result array after the run: G, when every writing point's block agrees with G. -/
theorem final3 (c : Dev nD) (G : S4x1x8192.Idx → EReal)
    (hcol : ∀ (t : Fin cfg0.N), t.val % 128 = 127 → ∀ (q : Fin 8192) (b : Fin 4), b.val = t.val / 128 →
        (outsAt0 (F := Ideal) m c t.val t.isLt).2.1 (ix3 (0 : Fin 1) (0 : Fin 1) q) = G (ix3 b (0 : Fin 1) q)) :
    (dats (F := Ideal) m 0 c).arrAt 3 cfg0.N = G :=
  (dats (F := Ideal) m 0 c).arrAt_eq_of_cover 3 G (fun t hf => flushed3_eq m c G hcol t hf) fun i => by
    have hi0 : (i 0).val < 4 := (i 0).isLt
    have hi1 : (i 1).val < 1 := (i 1).isLt
    have hi2 : (i 2).val < 8192 := (i 2).isLt
    have hN : cfg0.N = 512 := N_0
    have ht : (i 0).val * 128 + 127 < cfg0.N := by omega
    refine ⟨⟨(i 0).val * 128 + 127, ht⟩, (flush0_3 _).mpr (by show ((i 0).val * 128 + 127) % 128 = 127; omega), ?_⟩
    obtain ⟨e0, e1, e2⟩ := index3 ⟨(i 0).val * 128 + 127, ht⟩
    rw [mem_blk3]
    intro a
    match a with
    | ⟨0, _⟩ =>
      show win0_3.index ⟨(i 0).val * 128 + 127, ht⟩ (0 : Fin 3) * 1 ≤ (i 0).val
        ∧ (i 0).val < win0_3.index ⟨(i 0).val * 128 + 127, ht⟩ (0 : Fin 3) * 1 + 1
      rw [e0]; show ((i 0).val * 128 + 127) / 128 * 1 ≤ _ ∧ _ < ((i 0).val * 128 + 127) / 128 * 1 + 1; omega
    | ⟨1, _⟩ =>
      show win0_3.index ⟨(i 0).val * 128 + 127, ht⟩ (1 : Fin 3) * 1 ≤ (i 1).val
        ∧ (i 1).val < win0_3.index ⟨(i 0).val * 128 + 127, ht⟩ (1 : Fin 3) * 1 + 1
      rw [e1]; omega
    | ⟨2, _⟩ =>
      show win0_3.index ⟨(i 0).val * 128 + 127, ht⟩ (2 : Fin 3) * 8192 ≤ (i 2).val
        ∧ (i 2).val < win0_3.index ⟨(i 0).val * 128 + 127, ht⟩ (2 : Fin 3) * 8192 + 8192
      rw [e2]; omega

end Cert.KernelIdeal.Blocks

end
-- ==== Proof.Invariant.lean ====
/-
  The two running-minimum buffers after every grid step, and the two result arrays.

  After grid step t = (b, i, j) the row buffer holds, for each point of row block i of batch b of the first cloud, the least
  distance to the first (j+1)·1024 points of the second cloud, and the column buffer holds, for each point q of the second
  cloud, the least distance to the first (i+1)·512 points of the first cloud if q lies in the column blocks 0..j, to the
  first i·512 otherwise: by induction along the grid, each step being a step of the accumulation from buffers that are
  reset where a sweep begins. Where a sweep over the second cloud ends (j = 7) the first output block is the row buffer,
  which then holds the full minima over the second cloud; where a batch ends (i = 15, j = 7) the second output block is
  the column buffer, which then holds the full minima over the first cloud. So the first result array is, at (b, 0, n), the
  least distance from point n of the first cloud to the second cloud, and the second, at (b, 0, q), the least distance
  from point q of the second cloud to the first.
-/
import proofs.«145213_j42795054137808_2_alg».proof.Proof.Step
import proofs.«145213_j42795054137808_2_alg».proof.Proof.Blocks

set_option maxRecDepth 16384

noncomputable section

namespace Cert.KernelIdeal.Inv

open Idealize.ShloMosaic Idealize.ShloMosaic.TcCoe Idealize.SL.Sem Idealize.ShloMosaic.ValueIdx
open Cert.KernelIdeal Cert.KernelIdeal.Gen Cert.Chamfer Cert.KernelIdeal.Pay Cert.KernelIdeal.Pieces Cert.KernelIdeal.Step

variable (m : (ℓ : Loc nD τ sig) → Buf (Elt Ideal) ℓ)

/-- What the buffers hold after a step depends on the step's position only. -/
theorem outsAt0_congr (c : Dev nD) (a b : ℕ) (h : a = b) (ha : a < cfg0.N) (hb : b < cfg0.N) :
    outsAt0 m c a ha = outsAt0 m c b hb := by
  subst h; rfl

/-- The buffers after grid step `t` are good after `t mod 8 + 1` column blocks. -/
def After (c : Dev nD) (t : Fin cfg0.N) : Prop :=
  GoodRow (D m c) (t.val / 128) (t.val % 128 / 8) (t.val % 8 + 1) (outsAt0 m c t.val t.isLt).2.2.1
    ∧ GoodCol (D m c) (t.val / 128) (t.val % 128 / 8) (t.val % 8 + 1) (outsAt0 m c t.val t.isLt).2.2.2

theorem stepA (c : Dev nD) (t : Fin cfg0.N) (h0 : t.val % 128 = 0) (h1 : t.val % 8 = 0) (h2 : ¬t.val % 8 = 7) (h3 : ¬t.val % 128 = 127) : After m c t := by
  have e := outsAt0_A m c t h0 h1 h2 h3
  have er := congrArg (fun p => p.2.2.1) e
  have ec := congrArg (fun p => p.2.2.2) e
  dsimp only at er ec
  have hR := rowA c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) ((hcond0_0 t).mpr h0) ((hcond0_1 t).mpr h1) (fun h => h2 ((hcond0_2 t).mp h)) (fun h => h3 ((hcond0_3 t).mp h))
  have hI := fun y x hx => colA_in c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) ((hcond0_0 t).mpr h0) ((hcond0_1 t).mpr h1) (fun h => h2 ((hcond0_2 t).mp h)) (fun h => h3 ((hcond0_3 t).mp h)) y x hx
  have hO := fun y hy => colA_out c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) ((hcond0_0 t).mpr h0) ((hcond0_1 t).mpr h1) (fun h => h2 ((hcond0_2 t).mp h)) (fun h => h3 ((hcond0_3 t).mp h)) y hy
  unfold After
  rw [er, ec]
  exact stepAccum m c t _ _ _ _ hR hI hO (by rw [h1]; exact GoodRow.init fun r => pay6_apply _) (by rw [show t.val % 128 / 8 = 0 by omega, h1]; exact GoodCol.init fun q => pay5_apply _)

theorem stepB (c : Dev nD) (t : Fin cfg0.N) (h0 : ¬t.val % 128 = 0) (h1 : ¬t.val % 8 = 0) (h2 : ¬t.val % 8 = 7) (h3 : ¬t.val % 128 = 127)
    (hp : GoodRow (D m c) (t.val / 128) (t.val % 128 / 8) (t.val % 8) (outsAt0 m c (t.val - 1) (Nat.lt_of_le_of_lt (Nat.sub_le _ _) t.isLt)).2.2.1
      ∧ GoodCol (D m c) (t.val / 128) (t.val % 128 / 8) (t.val % 8) (outsAt0 m c (t.val - 1) (Nat.lt_of_le_of_lt (Nat.sub_le _ _) t.isLt)).2.2.2) : After m c t := by
  have e := outsAt0_B m c t h0 h1 h2 h3
  have er := congrArg (fun p => p.2.2.1) e
  have ec := congrArg (fun p => p.2.2.2) e
  dsimp only at er ec
  have hR := rowB c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (fun h => h0 ((hcond0_0 t).mp h)) (fun h => h1 ((hcond0_1 t).mp h)) (fun h => h2 ((hcond0_2 t).mp h)) (fun h => h3 ((hcond0_3 t).mp h)) (outsAt0 m c (t.val - 1) (Nat.lt_of_le_of_lt (Nat.sub_le _ _) t.isLt)).2.2.1 (outsAt0 m c (t.val - 1) (Nat.lt_of_le_of_lt (Nat.sub_le _ _) t.isLt)).2.2.2
  have hI := fun y x hx => colB_in c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (fun h => h0 ((hcond0_0 t).mp h)) (fun h => h1 ((hcond0_1 t).mp h)) (fun h => h2 ((hcond0_2 t).mp h)) (fun h => h3 ((hcond0_3 t).mp h)) (outsAt0 m c (t.val - 1) (Nat.lt_of_le_of_lt (Nat.sub_le _ _) t.isLt)).2.2.1 (outsAt0 m c (t.val - 1) (Nat.lt_of_le_of_lt (Nat.sub_le _ _) t.isLt)).2.2.2 y x hx
  have hO := fun y hy => colB_out c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (fun h => h0 ((hcond0_0 t).mp h)) (fun h => h1 ((hcond0_1 t).mp h)) (fun h => h2 ((hcond0_2 t).mp h)) (fun h => h3 ((hcond0_3 t).mp h)) (outsAt0 m c (t.val - 1) (Nat.lt_of_le_of_lt (Nat.sub_le _ _) t.isLt)).2.2.1 (outsAt0 m c (t.val - 1) (Nat.lt_of_le_of_lt (Nat.sub_le _ _) t.isLt)).2.2.2 y hy
  unfold After
  rw [er, ec]
  exact stepAccum m c t _ _ _ _ hR hI hO hp.1 hp.2

theorem stepC (c : Dev nD) (t : Fin cfg0.N) (h0 : ¬t.val % 128 = 0) (h1 : ¬t.val % 8 = 0) (h2 : t.val % 8 = 7) (h3 : ¬t.val % 128 = 127)
    (hp : GoodRow (D m c) (t.val / 128) (t.val % 128 / 8) (t.val % 8) (outsAt0 m c (t.val - 1) (Nat.lt_of_le_of_lt (Nat.sub_le _ _) t.isLt)).2.2.1
      ∧ GoodCol (D m c) (t.val / 128) (t.val % 128 / 8) (t.val % 8) (outsAt0 m c (t.val - 1) (Nat.lt_of_le_of_lt (Nat.sub_le _ _) t.isLt)).2.2.2) : After m c t := by
  have e := outsAt0_C m c t h0 h1 h2 h3
  have er := congrArg (fun p => p.2.2.1) e
  have ec := congrArg (fun p => p.2.2.2) e
  dsimp only at er ec
  have hR := rowC c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (fun h => h0 ((hcond0_0 t).mp h)) (fun h => h1 ((hcond0_1 t).mp h)) ((hcond0_2 t).mpr h2) (fun h => h3 ((hcond0_3 t).mp h)) (outsAt0 m c (t.val - 1) (Nat.lt_of_le_of_lt (Nat.sub_le _ _) t.isLt)).2.2.1 (outsAt0 m c (t.val - 1) (Nat.lt_of_le_of_lt (Nat.sub_le _ _) t.isLt)).2.2.2
  have hI := fun y x hx => colC_in c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (fun h => h0 ((hcond0_0 t).mp h)) (fun h => h1 ((hcond0_1 t).mp h)) ((hcond0_2 t).mpr h2) (fun h => h3 ((hcond0_3 t).mp h)) (outsAt0 m c (t.val - 1) (Nat.lt_of_le_of_lt (Nat.sub_le _ _) t.isLt)).2.2.1 (outsAt0 m c (t.val - 1) (Nat.lt_of_le_of_lt (Nat.sub_le _ _) t.isLt)).2.2.2 y x hx
  have hO := fun y hy => colC_out c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (fun h => h0 ((hcond0_0 t).mp h)) (fun h => h1 ((hcond0_1 t).mp h)) ((hcond0_2 t).mpr h2) (fun h => h3 ((hcond0_3 t).mp h)) (outsAt0 m c (t.val - 1) (Nat.lt_of_le_of_lt (Nat.sub_le _ _) t.isLt)).2.2.1 (outsAt0 m c (t.val - 1) (Nat.lt_of_le_of_lt (Nat.sub_le _ _) t.isLt)).2.2.2 y hy
  unfold After
  rw [er, ec]
  exact stepAccum m c t _ _ _ _ hR hI hO hp.1 hp.2

theorem stepD (c : Dev nD) (t : Fin cfg0.N) (h0 : ¬t.val % 128 = 0) (h1 : t.val % 8 = 0) (h2 : ¬t.val % 8 = 7) (h3 : ¬t.val % 128 = 127)
    (hp : GoodCol (D m c) (t.val / 128) (t.val % 128 / 8) (t.val % 8) (outsAt0 m c (t.val - 1) (Nat.lt_of_le_of_lt (Nat.sub_le _ _) t.isLt)).2.2.2) : After m c t := by
  have e := outsAt0_D m c t h0 h1 h2 h3
  have er := congrArg (fun p => p.2.2.1) e
  have ec := congrArg (fun p => p.2.2.2) e
  dsimp only at er ec
  have hR := rowD c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (fun h => h0 ((hcond0_0 t).mp h)) ((hcond0_1 t).mpr h1) (fun h => h2 ((hcond0_2 t).mp h)) (fun h => h3 ((hcond0_3 t).mp h)) (outsAt0 m c (t.val - 1) (Nat.lt_of_le_of_lt (Nat.sub_le _ _) t.isLt)).2.2.2
  have hI := fun y x hx => colD_in c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (fun h => h0 ((hcond0_0 t).mp h)) ((hcond0_1 t).mpr h1) (fun h => h2 ((hcond0_2 t).mp h)) (fun h => h3 ((hcond0_3 t).mp h)) (outsAt0 m c (t.val - 1) (Nat.lt_of_le_of_lt (Nat.sub_le _ _) t.isLt)).2.2.2 y x hx
  have hO := fun y hy => colD_out c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (fun h => h0 ((hcond0_0 t).mp h)) ((hcond0_1 t).mpr h1) (fun h => h2 ((hcond0_2 t).mp h)) (fun h => h3 ((hcond0_3 t).mp h)) (outsAt0 m c (t.val - 1) (Nat.lt_of_le_of_lt (Nat.sub_le _ _) t.isLt)).2.2.2 y hy
  unfold After
  rw [er, ec]
  exact stepAccum m c t _ _ _ _ hR hI hO (by rw [h1]; exact GoodRow.init fun r => pay6_apply _) hp

theorem stepE (c : Dev nD) (t : Fin cfg0.N) (h0 : ¬t.val % 128 = 0) (h1 : ¬t.val % 8 = 0) (h2 : t.val % 8 = 7) (h3 : t.val % 128 = 127)
    (hp : GoodRow (D m c) (t.val / 128) (t.val % 128 / 8) (t.val % 8) (outsAt0 m c (t.val - 1) (Nat.lt_of_le_of_lt (Nat.sub_le _ _) t.isLt)).2.2.1
      ∧ GoodCol (D m c) (t.val / 128) (t.val % 128 / 8) (t.val % 8) (outsAt0 m c (t.val - 1) (Nat.lt_of_le_of_lt (Nat.sub_le _ _) t.isLt)).2.2.2) : After m c t := by
  have e := outsAt0_E m c t h0 h1 h2 h3
  have er := congrArg (fun p => p.2.2.1) e
  have ec := congrArg (fun p => p.2.2.2) e
  dsimp only at er ec
  have hR := rowE c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (fun h => h0 ((hcond0_0 t).mp h)) (fun h => h1 ((hcond0_1 t).mp h)) ((hcond0_2 t).mpr h2) ((hcond0_3 t).mpr h3) (outsAt0 m c (t.val - 1) (Nat.lt_of_le_of_lt (Nat.sub_le _ _) t.isLt)).2.2.1 (outsAt0 m c (t.val - 1) (Nat.lt_of_le_of_lt (Nat.sub_le _ _) t.isLt)).2.2.2
  have hI := fun y x hx => colE_in c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (fun h => h0 ((hcond0_0 t).mp h)) (fun h => h1 ((hcond0_1 t).mp h)) ((hcond0_2 t).mpr h2) ((hcond0_3 t).mpr h3) (outsAt0 m c (t.val - 1) (Nat.lt_of_le_of_lt (Nat.sub_le _ _) t.isLt)).2.2.1 (outsAt0 m c (t.val - 1) (Nat.lt_of_le_of_lt (Nat.sub_le _ _) t.isLt)).2.2.2 y x hx
  have hO := fun y hy => colE_out c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (fun h => h0 ((hcond0_0 t).mp h)) (fun h => h1 ((hcond0_1 t).mp h)) ((hcond0_2 t).mpr h2) ((hcond0_3 t).mpr h3) (outsAt0 m c (t.val - 1) (Nat.lt_of_le_of_lt (Nat.sub_le _ _) t.isLt)).2.2.1 (outsAt0 m c (t.val - 1) (Nat.lt_of_le_of_lt (Nat.sub_le _ _) t.isLt)).2.2.2 y hy
  unfold After
  rw [er, ec]
  exact stepAccum m c t _ _ _ _ hR hI hO hp.1 hp.2

/-- Along the grid, by induction on the step's position. -/
theorem after_all (c : Dev nD) : ∀ (n : ℕ) (t : Fin cfg0.N), t.val = n → After m c t := by
  intro n
  induction n with
  | zero =>
    intro t ht
    exact stepA m c t (by omega) (by omega) (by omega) (by omega)
  | succ n ih =>
    intro t ht
    have hN : t.val < 512 := lt_of_lt_of_eq t.isLt (show cfg0.N = 512 from N_0)
    have hn : n < cfg0.N := by have := t.isLt; omega
    have hprev : GoodRow (D m c) (n / 128) (n % 128 / 8) (n % 8 + 1) (outsAt0 m c n hn).2.2.1
        ∧ GoodCol (D m c) (n / 128) (n % 128 / 8) (n % 8 + 1) (outsAt0 m c n hn).2.2.2 := ih ⟨n, hn⟩ rfl
    have hidx : outsAt0 m c (t.val - 1) (Nat.lt_of_le_of_lt (Nat.sub_le _ _) t.isLt) = outsAt0 m c n hn := outsAt0_congr m c _ _ (by omega) _ _
    have q1 : n / 128 = t.val / 128 ∨ t.val % 128 = 0 := by omega
    by_cases h0 : t.val % 128 = 0
    · exact stepA m c t h0 (by omega) (by omega) (by omega)
    · have e1 : n / 128 = t.val / 128 := by omega
      by_cases h1 : t.val % 8 = 0
      · refine stepD m c t h0 h1 (by omega) (by omega) ?_
        rw [hidx, h1]
        have e2 : n % 128 / 8 + 1 = t.val % 128 / 8 := by omega
        have e3 : n % 8 + 1 = 8 := by omega
        have hc := hprev.2
        rw [e1, e3] at hc
        rw [← e2]
        exact hc.nextRowBlock
      · have e2 : n % 128 / 8 = t.val % 128 / 8 := by omega
        have e3 : n % 8 + 1 = t.val % 8 := by omega
        have hp : GoodRow (D m c) (t.val / 128) (t.val % 128 / 8) (t.val % 8) (outsAt0 m c (t.val - 1) (Nat.lt_of_le_of_lt (Nat.sub_le _ _) t.isLt)).2.2.1
            ∧ GoodCol (D m c) (t.val / 128) (t.val % 128 / 8) (t.val % 8) (outsAt0 m c (t.val - 1) (Nat.lt_of_le_of_lt (Nat.sub_le _ _) t.isLt)).2.2.2 := by
          rw [hidx, ← e1, ← e2, ← e3]
          exact hprev
        by_cases h2 : t.val % 8 = 7
        · by_cases h3 : t.val % 128 = 127
          · exact stepE m c t h0 h1 h2 h3 hp
          · exact stepC m c t h0 h1 h2 h3 hp
        · exact stepB m c t h0 h1 h2 (by omega) hp

/-- Where a sweep over the second cloud ends, the first output block is the row buffer. -/
theorem out2_eq (c : Dev nD) (t : Fin cfg0.N) (h2 : t.val % 8 = 7) (r : Fin 512) :
    (outsAt0 m c t.val t.isLt).1 (ix3 (0 : Fin 1) (0 : Fin 1) r) = (outsAt0 m c t.val t.isLt).2.2.1 (ix2 (0 : Fin 1) r) := by
  have h0 : ¬t.val % 128 = 0 := by omega
  have h1 : ¬t.val % 8 = 0 := by omega
  by_cases h3 : t.val % 128 = 127
  · have e := outsAt0_E m c t h0 h1 h2 h3
    have eo := congrArg (fun p => p.1) e
    have er := congrArg (fun p => p.2.2.1) e
    dsimp only at eo er
    rw [eo, er, out2E c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (fun h => h0 ((hcond0_0 t).mp h)) (fun h => h1 ((hcond0_1 t).mp h)) ((hcond0_2 t).mpr h2) ((hcond0_3 t).mpr h3) (outsAt0 m c (t.val - 1) (Nat.lt_of_le_of_lt (Nat.sub_le _ _) t.isLt)).2.2.1 (outsAt0 m c (t.val - 1) (Nat.lt_of_le_of_lt (Nat.sub_le _ _) t.isLt)).2.2.2, rowE c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (fun h => h0 ((hcond0_0 t).mp h)) (fun h => h1 ((hcond0_1 t).mp h)) ((hcond0_2 t).mpr h2) ((hcond0_3 t).mpr h3) (outsAt0 m c (t.val - 1) (Nat.lt_of_le_of_lt (Nat.sub_le _ _) t.isLt)).2.2.1 (outsAt0 m c (t.val - 1) (Nat.lt_of_le_of_lt (Nat.sub_le _ _) t.isLt)).2.2.2, pay3_apply]
  · have e := outsAt0_C m c t h0 h1 h2 h3
    have eo := congrArg (fun p => p.1) e
    have er := congrArg (fun p => p.2.2.1) e
    dsimp only at eo er
    rw [eo, er, out2C c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (fun h => h0 ((hcond0_0 t).mp h)) (fun h => h1 ((hcond0_1 t).mp h)) ((hcond0_2 t).mpr h2) (fun h => h3 ((hcond0_3 t).mp h)) (outsAt0 m c (t.val - 1) (Nat.lt_of_le_of_lt (Nat.sub_le _ _) t.isLt)).2.2.1 (outsAt0 m c (t.val - 1) (Nat.lt_of_le_of_lt (Nat.sub_le _ _) t.isLt)).2.2.2, rowC c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (fun h => h0 ((hcond0_0 t).mp h)) (fun h => h1 ((hcond0_1 t).mp h)) ((hcond0_2 t).mpr h2) (fun h => h3 ((hcond0_3 t).mp h)) (outsAt0 m c (t.val - 1) (Nat.lt_of_le_of_lt (Nat.sub_le _ _) t.isLt)).2.2.1 (outsAt0 m c (t.val - 1) (Nat.lt_of_le_of_lt (Nat.sub_le _ _) t.isLt)).2.2.2, pay3_apply]

/-- Where a batch ends, the second output block is the column buffer. -/
theorem out3_eq (c : Dev nD) (t : Fin cfg0.N) (h3 : t.val % 128 = 127) (q : Fin 8192) :
    (outsAt0 m c t.val t.isLt).2.1 (ix3 (0 : Fin 1) (0 : Fin 1) q) = (outsAt0 m c t.val t.isLt).2.2.2 (ix2 (0 : Fin 1) q) := by
  have h0 : ¬t.val % 128 = 0 := by omega
  have h1 : ¬t.val % 8 = 0 := by omega
  have h2 : t.val % 8 = 7 := by omega
  have e := outsAt0_E m c t h0 h1 h2 h3
  have eo := congrArg (fun p => p.2.1) e
  have ec := congrArg (fun p => p.2.2.2) e
  dsimp only at eo ec
  rw [eo, ec, out3E c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (fun h => h0 ((hcond0_0 t).mp h)) (fun h => h1 ((hcond0_1 t).mp h)) ((hcond0_2 t).mpr h2) ((hcond0_3 t).mpr h3) (outsAt0 m c (t.val - 1) (Nat.lt_of_le_of_lt (Nat.sub_le _ _) t.isLt)).2.2.1 (outsAt0 m c (t.val - 1) (Nat.lt_of_le_of_lt (Nat.sub_le _ _) t.isLt)).2.2.2, pay4_apply]

/-- The first result array: at (b, 0, n) the least distance from point n of the first cloud to the second cloud. -/
def rowArr (c : Dev nD) : S4x1x8192.Idx → EReal := fun idx => rowMinOf (D m c) (ix2 (idx 0) (idx 2))
/-- The second result array: at (b, 0, q) the least distance from point q of the second cloud to the first cloud. -/
def colArr (c : Dev nD) : S4x1x8192.Idx → EReal := fun idx => colMinOf (D m c) (ix2 (idx 0) (idx 2))

theorem final_row (c : Dev nD) : (dats (F := Ideal) m 0 c).arrAt 2 cfg0.N = rowArr m c :=
  Cert.KernelIdeal.Blocks.final2 m c (rowArr m c) fun t h7 r b n hb hn => by
    rw [out2_eq m c t h7 r]
    have hg := (after_all m c t.val t rfl).1
    rw [show t.val % 8 + 1 = 8 by omega] at hg
    exact hg.final b r n hb hn

theorem final_col (c : Dev nD) : (dats (F := Ideal) m 0 c).arrAt 3 cfg0.N = colArr m c :=
  Cert.KernelIdeal.Blocks.final3 m c (colArr m c) fun t h127 q b hb => by
    rw [out3_eq m c t h127 q]
    have hN : t.val < 512 := lt_of_lt_of_eq t.isLt (show cfg0.N = 512 from N_0)
    have hg := (after_all m c t.val t rfl).2
    rw [show t.val % 8 + 1 = 8 by omega, show t.val % 128 / 8 = 15 by omega] at hg
    exact hg.final b q hb

end Cert.KernelIdeal.Inv

end
-- ==== Proof.Tail.lean ====
import Idealize.ShloMosaic.PureOps.Ideal

/-!
# The host tail shared by the two programs

Both programs end by taking two arrays `A B : [4, 8192] → f32` to one scalar,

  (1/4) · Σ_b ( (1/8192) · Σ_j A b j  +  (1/8192) · Σ_j B b j ),

every sum started from `0`, every division the host's division, the divisor `8192` spread over the four rows.
It is stated once, generic in the float instance, over its own names for the three shapes, so that each program's
last value is this function of the two arrays going in and the two programs are compared by comparing the arrays.
-/

noncomputable section

namespace Cert.Chamfer.Tail

open Idealize.ShloMosaic

/-- The two arrays going in: four rows of 8192. -/
abbrev R48 : Shape := ⟨2, ![4, 8192]⟩
/-- One value per row. -/
abbrev S4 : Shape := ⟨1, ![4]⟩
/-- The scalar. -/
abbrev S0 : Shape := ⟨0, ![]⟩

/-- `tail A B = ( Σ_b ( (Σ_j A b j) / 8192 + (Σ_j B b j) / 8192 ) ) / 4`, each sum from `0`. The four shape facts
    are propositions, so any proofs of them give the same function. -/
def tail {F : FTy → Type} [FloatOps F]
    (h1 : R48.ReducesTo [1] S4) (h0 : 0 < S0.numel)
    (hb : S0.BroadcastsInDim S4 (![] : Fin 0 → Fin S4.rank)) (h3 : S4.ReducesTo [0] S0)
    (A B : R48.Idx → F .f32) : S0.Idx → F .f32 :=
  Host.divf
    (Host.reduceAdd
      (addf
        (Host.divf (Host.reduceAdd A (constant (F := F) S0 .f32 0x00000000#32) h1 h0)
          (broadcastInDim S4 ![] hb (constant (F := F) S0 .f32 0x46000000#32)))
        (Host.divf (Host.reduceAdd B (constant (F := F) S0 .f32 0x00000000#32) h1 h0)
          (broadcastInDim S4 ![] hb (constant (F := F) S0 .f32 0x46000000#32))))
      (constant (F := F) S0 .f32 0x00000000#32) h3 h0)
    (constant (F := F) S0 .f32 0x40800000#32)

end Cert.Chamfer.Tail

end
-- ==== Proof.KernelTail.lean ====
import proofs.«145213_j42795054137808_2_alg».proof.Proof.Tail
import proofs.«145213_j42795054137808_2_alg».proof.Proof.Gen.KernelIdeal.Frame
import Idealize.ShloMosaic.Lib.Pipeline.Value
import Idealize.ShloMosaic.Lib.StableHlo.Run
import Idealize.ShloMosaic.Lib.Tactic

/-!
# The kernel's program ends with the shared tail

After its region the kernel's program reshapes the region's two [4, 1, 8192] result arrays to [4, 8192] and applies the
shared tail to them. So whatever the region leaves in those two arrays — `A2` and `A3` below, one pair per core —,
every weakly fair run of the program terminates, with the program's scalar result at the shared tail of the two arrays
read at shape [4, 8192] and the two argument arrays as they were.
-/

noncomputable section

namespace Cert.KernelIdeal.Tail

open Cert.KernelIdeal Cert.KernelIdeal.Gen
open Idealize.ShloMosaic Idealize.ShloMosaic.TcCoe Idealize.ShloMosaic.Tactic Idealize.SL.Sem Idealize.ShloMosaic.StableHlo

/-- From any memory with zero counters every weakly fair run of the program terminates, and in every final state, on
    every core: the scalar result is the shared tail of the region's two result arrays (`A2`, `A3`: what the proof data
    compute for windows 2 and 3 after the last grid point) read row-major at shape [4, 8192]; and the two argument arrays
    hold what they held at the start.

    The result: the scalar is no array of the pipeline, so it holds what the lines after the region leave there; those
    lines are the two reshapes followed by the tail's operations, each result the operation's function of its operands'
    contents; the reshapes read the region's two result arrays, which hold `A2` and `A3`. -/
theorem run_tail (m : (ℓ : Loc nD τ sig) → Buf (Elt Ideal) ℓ) (ρ : Dev nD → PrngReg)
    (A2 : (c : Dev nD) → Buf (Elt Ideal) ((c.tc : Thread nD τ).loc main_call0_v0_0))
    (A3 : (c : Dev nD) → Buf (Elt Ideal) ((c.tc : Thread nD τ).loc main_call0_v0_1))
    (h2 : ∀ c, (dats (F := Ideal) m 0 c).arrAt 2 cfg0.N = A2 c)
    (h3 : ∀ c, (dats (F := Ideal) m 0 c).arrAt 3 cfg0.N = A3 c) :
    θ_run defs (onTc (τ := τ) (main (F := Ideal))) ⟨m, fun _ => 0, ρ⟩ (fun r => ∀ c : Dev nD,
        r.2.mem ((c.tc : Thread nD τ).loc main_v9)
          = Cert.Chamfer.Tail.tail (F := Ideal) Facts₀.reducesTo_S4x8192_S4_d1 Facts₀.h_S_ Facts₀.bcast_S_S4 Facts₀.reducesTo_S4_S_d0
              (shapeCast S4x8192 (A2 c) Facts₀.shapeCasts_S4x1x8192_S4x8192)
              (shapeCast S4x8192 (A3 c) Facts₀.shapeCasts_S4x1x8192_S4x8192)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ⟨?_, ?_, ?_⟩) (run_main m ρ)
  · -- the scalar result is unscoped and is no window's array
    have hmem : main_v9 ∈ Pipeline.restRefs sig (cfgs 0).spec :=
      Pipeline.mem_restRefs_of main_v9 rfl (by decide)
    refine ((h c).2 main_v9 hmem).trans ?_
    -- the seventeen lines after the region, each result its function of its operands
    unfold Pipeline.afterTail₀
    show StableHlo.after (List.flatten [hostOps1, hostOps1_1]) _ (Proc.devRef .tc main_v9) = _
    simp only [hostOps1, hostOps1_1, List.flatten_cons, List.flatten_nil, List.append_nil, List.cons_append, List.nil_append]
    after_results
    -- the two arrays the reshapes read are windows 2 and 3 of the pipeline
    have w2 : Pipeline.withArrays (cfgs 0).spec c (V0 m c) (fun w => (dats m 0 c).arrAt w (cfgs 0).N)
        (Proc.devRef .tc main_call0_v0_0) = A2 c :=
      (Pipeline.withArrays_arr spec0 launch0.win.arr_inj c _ _ 2).trans (h2 c)
    have w3 : Pipeline.withArrays (cfgs 0).spec c (V0 m c) (fun w => (dats m 0 c).arrAt w (cfgs 0).N)
        (Proc.devRef .tc main_call0_v0_1) = A3 c :=
      (Pipeline.withArrays_arr spec0 launch0.win.arr_inj c _ _ 3).trans (h3 c)
    rw [← w2, ← w3]
    rfl
  · -- a staged input array ends at its entry contents
    exact ((h c).1 0).trans (((dats m 0 c).arrAt_in 0 rfl _).trans ((A_eq m c 0).trans (V_main_arg0 m c)))
  · exact ((h c).1 1).trans (((dats m 0 c).arrAt_in 1 rfl _).trans ((A_eq m c 1).trans (V_main_arg1 m c)))

end Cert.KernelIdeal.Tail

end
-- ==== Proof.Join.lean ====
/-
  The kernel's run with its result named.

  The two result arrays of the region are, at (b, 0, n), the two directions of the chamfer minima; the reshape that drops
  the unit axis reads (b, n) at (b, 0, n), so the arrays the shared tail of means consumes are the two tables of minima
  themselves, and the kernel's scalar result is the tail of those two tables.
-/
import proofs.«145213_j42795054137808_2_alg».proof.Proof.Invariant
import proofs.«145213_j42795054137808_2_alg».proof.Proof.KernelTail
import Idealize.ShloMosaic.Lib.Pipeline.Value

noncomputable section

namespace Cert.KernelIdeal.Join

open Idealize.ShloMosaic Idealize.ShloMosaic.TcCoe Idealize.SL.Sem Idealize.ShloMosaic.ValueIdx
open Cert.KernelIdeal Cert.KernelIdeal.Gen Cert.Chamfer Cert.KernelIdeal.Step Cert.KernelIdeal.Inv

variable (m : (ℓ : Loc nD τ sig) → Buf (Elt Ideal) ℓ) (ρ : Dev nD → PrngReg)

/-- Dropping the unit axis of the first result array leaves the minima over the second cloud. -/
theorem cast_row (c : Dev nD) (h : S4x1x8192.ShapeCasts S4x8192) :
    shapeCast S4x8192 (rowArr m c) h = rowMinOf (D m c) := by
  funext idx
  obtain ⟨b, n, rfl⟩ : ∃ (b : Fin 4) (n : Fin 8192), idx = ix2 b n := ⟨idx 0, idx 1, eq_ix2 idx⟩
  refine (shapeCast_apply (rowArr m c) h (ix2 b n) (ix3 b (0 : Fin 1) n) ?_).trans rfl
  rw [Shape.rowMajor_val_three, Shape.rowMajor_val_two]
  show (b.val * 1 + 0) * 8192 + n.val = b.val * 8192 + n.val
  omega

/-- Dropping the unit axis of the second result array leaves the minima over the first cloud. -/
theorem cast_col (c : Dev nD) (h : S4x1x8192.ShapeCasts S4x8192) :
    shapeCast S4x8192 (colArr m c) h = colMinOf (D m c) := by
  funext idx
  obtain ⟨b, q, rfl⟩ : ∃ (b : Fin 4) (q : Fin 8192), idx = ix2 b q := ⟨idx 0, idx 1, eq_ix2 idx⟩
  refine (shapeCast_apply (colArr m c) h (ix2 b q) (ix3 b (0 : Fin 1) q) ?_).trans rfl
  rw [Shape.rowMajor_val_three, Shape.rowMajor_val_two]
  show (b.val * 1 + 0) * 8192 + q.val = b.val * 8192 + q.val
  omega

/-- Every weakly fair execution of the kernel's program ends with its scalar result at the tail of means of the two tables
    of chamfer minima of its argument clouds, the arguments unchanged. -/
theorem run : θ_run defs (onTc (τ := τ) (main (F := Ideal))) ⟨m, fun _ => 0, ρ⟩ (fun r => ∀ c : Dev nD,
      r.2.mem ((c.tc : Thread nD τ).loc main_v9)
        = Cert.Chamfer.Tail.tail (F := Ideal) Facts₀.reducesTo_S4x8192_S4_d1 Facts₀.h_S_ Facts₀.bcast_S_S4 Facts₀.reducesTo_S4_S_d0
            (rowMinOf (D m c)) (colMinOf (D m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨by rw [(h c).1, cast_row, cast_col], (h c).2⟩)
    (Cert.KernelIdeal.Tail.run_tail m ρ (rowArr m) (colArr m) (final_row m) (final_col m))

end Cert.KernelIdeal.Join

end
-- ==== Proof.RefTail.lean ====
import proofs.«145213_j42795054137808_2_alg».proof.Proof.Tail
import proofs.«145213_j42795054137808_2_alg».proof.Proof.Gen.ReferenceIdeal.Read

/-!
# The reference ends with the shared tail

The reference's last nine values are the shared tail applied to the two [4, 8192] arrays it computes before them: its
scalar result is `tail` of those two arrays.
-/

noncomputable section

namespace Cert.Chamfer.Ref

open Idealize.ShloMosaic Cert.ReferenceIdeal Cert.ReferenceIdeal.Gen

/-- The reference's scalar is the shared tail of its two [4, 8192] arrays: the operations are the same ones in the
    same order, so the two sides are one term. -/
theorem v23_eq_tail (x y : (⟨S4x8192x3, .f32⟩ : BufTy).Contents (Elt Ideal)) :
    Read.val_main_v23 (F := Ideal) x y
      = Tail.tail (F := Ideal) Facts₀.reducesTo_S4x8192_S4_d1 Facts₀.h_S_ Facts₀.bcast_S_S4 Facts₀.reducesTo_S4_S_d0
          (Read.val_main_v13 (F := Ideal) x y) (Read.val_main_v14 (F := Ideal) x y) := rfl

end Cert.Chamfer.Ref

end
-- ==== Proof.RefRows.lean ====
/-
  The reference's two minimum stages, read index by index.

  The reference builds the table of squared distances in the expanded arrangement: the squared norms of the points of
  each cloud (each a sum over the three coordinates started from zero), laid along the rows and along the columns of
  the table, added, minus the word of 2 times the table of inner products.  Entry (b, n, m) of that table is the
  expanded squared distance between point n of the first cloud and point m of the second, in batch b.
  The minimum over the last axis, started from the value of the word 0x7F800000, is then for each (b, n) the least
  entry of row n; the minimum over the middle axis is for each (b, m) the least entry of column m.  A minimum over
  one axis is a fold of the commutative and associative `min` over that axis's coordinates, so its order is
  immaterial and it is the fold over the finite set of coordinates.
-/
import proofs.«145213_j42795054137808_2_alg».proof.Proof.Dist
import proofs.«145213_j42795054137808_2_alg».proof.Proof.Gen.ReferenceIdeal.Read
import Idealize.ShloMosaic.PureOps.Reduce
import Idealize.ShloMosaic.PureOps.Ideal.Laws

noncomputable section

namespace Cert.Chamfer.Ref

open Idealize.ShloMosaic Idealize.ShloMosaic.ValueIdx Cert.ReferenceIdeal Cert.ReferenceIdeal.Read

/-- Entry (b, n, m) of the reference's table is the expanded squared distance. -/
theorem table_apply (x y : Pts.Idx → EReal) (b : Fin 4) (n m : Fin 8192) :
    val_main_v12 (F := Ideal) x y (ix3 b n m) = sqExp x y b n m := by
  have e1 : ∀ k : Fin 3, idx_main_v1 (idx_main_v5 (idx_main_v7 (ix3 b n m))) k = ix3 b n k := fun k =>
    funext fun a => Fin.ext (by match a with | ⟨0, _⟩ => rfl | ⟨1, _⟩ => rfl | ⟨2, _⟩ => rfl)
  have e2 : ∀ k : Fin 3, idx_main_v3 (idx_main_v6 (idx_main_v8 (ix3 b n m))) k = ix3 b m k := fun k =>
    funext fun a => Fin.ext (by match a with | ⟨0, _⟩ => rfl | ⟨1, _⟩ => rfl | ⟨2, _⟩ => rfl)
  have e3 : ∀ k : Fin 3, lidx_main_v4 (ix3 b n m) k = ix3 b n k := fun k =>
    funext fun a => Fin.ext (by match a with | ⟨0, _⟩ => rfl | ⟨1, _⟩ => rfl | ⟨2, _⟩ => rfl)
  have e4 : ∀ k : Fin 3, ridx_main_v4 (ix3 b n m) k = ix3 b m k := fun k =>
    funext fun a => Fin.ext (by match a with | ⟨0, _⟩ => rfl | ⟨1, _⟩ => rfl | ⟨2, _⟩ => rfl)
  unfold sqExp two32
  rw [val_main_v12_apply, val_main_v9_apply, val_main_v11_apply, val_main_v7_apply, val_main_v5_apply,
    val_main_v1_apply, val_main_v8_apply, val_main_v6_apply, val_main_v3_apply, val_main_v10_apply,
    val_main_v4_apply]
  simp only [val_main_v0_apply, val_main_v2_apply, val_main_cst_apply, val_main_cst_0_apply, val_main_cst_1_apply,
    e1, e2, e3, e4, Ideal.subf_def, Ideal.addf_def, Ideal.mulf_def, Ideal.ofBits_def, Ideal.ofBits_zero_f32]

/-- The minimum over the last axis: for each point of the first cloud, the least entry of its row. -/
theorem v13_eq (x y : Pts.Idx → EReal) :
    Cert.ReferenceIdeal.Read.val_main_v13 (F := Ideal) x y = rowMinOf (sqExp x y) := by
  funext i
  have hR : S4x8192x8192.Reduces [2] S4x8192 := by decide
  have hl : ∀ m : Fin 8192, hR.lift i m = ix3 (i 0) (i 1) m := fun m =>
    funext fun c => Fin.ext (by
      match c with
      | ⟨0, _⟩ => rfl
      | ⟨1, _⟩ => rfl
      | ⟨2, _⟩ => rfl)
  unfold val_main_v13
  rw [Host.reduce_eq_fold_single _ _ _ _ hR]
  unfold rowMinOf
  show (Finset.univ : Finset (Fin 8192)).fold min top32 (fun m => val_main_v12 (F := Ideal) x y (hR.lift i m)) = _
  exact Finset.fold_congr fun m _ =>
    (congrArg (val_main_v12 (F := Ideal) x y) (hl m)).trans (table_apply x y (i 0) (i 1) m)

/-- The minimum over the middle axis: for each point of the second cloud, the least entry of its column. -/
theorem v14_eq (x y : Pts.Idx → EReal) :
    Cert.ReferenceIdeal.Read.val_main_v14 (F := Ideal) x y = colMinOf (sqExp x y) := by
  funext i
  have hR : S4x8192x8192.Reduces [1] S4x8192 := by decide
  have hl : ∀ n : Fin 8192, hR.lift i n = ix3 (i 0) n (i 1) := fun n =>
    funext fun c => Fin.ext (by
      match c with
      | ⟨0, _⟩ => rfl
      | ⟨1, _⟩ => rfl
      | ⟨2, _⟩ => rfl)
  unfold val_main_v14
  rw [Host.reduce_eq_fold_single _ _ _ _ hR]
  unfold colMinOf
  show (Finset.univ : Finset (Fin 8192)).fold min top32 (fun n => val_main_v12 (F := Ideal) x y (hR.lift i n)) = _
  exact Finset.fold_congr fun n _ =>
    (congrArg (val_main_v12 (F := Ideal) x y) (hl n)).trans (table_apply x y (i 0) n (i 1))

end Cert.Chamfer.Ref

end
-- ==== Proof.DistLaw.lean ====
/-
  The two arrangements of the squared distance agree on real coordinates.

  Coordinate by coordinate the squared distance is  0 + (x₀ - y₀)² + (x₁ - y₁)² + (x₂ - y₂)²;  expanded it is
  (0 + Σ xₖ²) + (0 + Σ yₖ²) - 2 · Σ xₖ yₖ.  The passage from one to the other is the binomial square
  (a - b)² = a² + b² - 2ab, summed over the three coordinates.  It distributes products over differences, which
  the extended reals do not allow at the infinities, so it is stated for arrays all of whose entries are real
  numbers: there every sum, difference and product is the real one, and the identity is one of the real field.
  The factor of the cross term is the single-precision word of the number 2.
-/
import proofs.«145213_j42795054137808_2_alg».proof.Proof.Dist

noncomputable section

namespace Cert.Chamfer

open Idealize.ShloMosaic Idealize.ShloMosaic.ValueIdx

/-- The word 0x40000000 denotes the real number 2. -/
theorem two32_eq : two32 = ((2 : ℝ) : EReal) := by
  simp [two32, Ideal.ofBits, Ideal.ieee, -EReal.coe_mul]; norm_num

/-- The binomial square over three real coordinates, stated on the extended reals' copies of the reals. -/
theorem binomial_three (a0 a1 a2 c0 c1 c2 : ℝ) :
    (0 : EReal) + ((a0 : EReal) - c0) * ((a0 : EReal) - c0) + ((a1 : EReal) - c1) * ((a1 : EReal) - c1)
        + ((a2 : EReal) - c2) * ((a2 : EReal) - c2)
      = ((0 + ((a0 : EReal) * a0 + (a1 : EReal) * a1 + (a2 : EReal) * a2))
          + (0 + ((c0 : EReal) * c0 + (c1 : EReal) * c1 + (c2 : EReal) * c2)))
        - ((2 : ℝ) : EReal) * ((a0 : EReal) * c0 + (a1 : EReal) * c1 + (a2 : EReal) * c2) := by
  norm_cast
  ring

/-- On arrays of real numbers the squared distance taken coordinate by coordinate is the expanded one. -/
theorem sq_eq_sqExp (x y : Pts.Idx → EReal) (hx : ∀ i, ∃ r : ℝ, x i = (r : EReal))
    (hy : ∀ i, ∃ r : ℝ, y i = (r : EReal)) : sq x y = sqExp x y := by
  choose a ha using hx
  choose c hc using hy
  funext b n m
  unfold sq sqExp
  rw [Fin.sum_univ_three, Fin.sum_univ_three, Fin.sum_univ_three, two32_eq]
  simp only [ha, hc]
  exact binomial_three _ _ _ _ _ _

end Cert.Chamfer

end
-- ==== Proof.Finite.lean ====
/-
  From the finiteness precondition to "every coordinate is a real number".

  The precondition is the conjunction, over both clouds, of "every entry has absolute value below the value of the
  word 0x7F800000", each taken as an `and` over all entries starting from 1.  A conjunction that is 1 has both
  conjuncts 1; an `and` over all entries that is 1 met only ones; and an extended real whose absolute value
  max v (-v) lies strictly below +∞ is neither +∞ nor -∞, hence a real number.
-/
import proofs.«145213_j42795054137808_2_alg».proof.Proof.Dist
import proofs.«145213_j42795054137808_2_alg».proof.Pre_finite_inputs
import Idealize.ShloMosaic.Lib.ReduceAll
import Idealize.ShloMosaic.Lib.KernelVsHost

noncomputable section

namespace Cert.Chamfer

open Idealize.ShloMosaic Idealize.ShloMosaic.ValueIdx

/-- The scalar shape has one index. -/
instance scalarIdxSubsingleton : Subsingleton Cert.Pre_finite_inputs.S_.Idx :=
  ⟨fun a b => funext fun d => d.elim0⟩

/-- An extended real whose absolute value is strictly below +∞ is a real number. -/
theorem real_of_abs_lt_top (v : EReal)
    (h : FloatOps.cmpf (F := Ideal) .olt (FloatOps.hostAbsf (F := Ideal) (φ := .f32) v)
          (FloatOps.ofBits (F := Ideal) .f32 0x7F800000#32) = 1#1) :
    ∃ r : ℝ, v = (r : EReal) := by
  rw [← Ideal.xori_weird_eq_hostAbsf_olt_inf] at h
  change IntOp.xori (BitVec.ofBool (decide ((v : EReal) = ⊤ ∨ (v : EReal) = ⊥))) 1#1 = 1#1 at h
  by_cases hv : v = ⊤ ∨ v = ⊥
  · rw [decide_eq_true hv] at h
    exact absurd h (by decide)
  · induction v using EReal.rec with
    | bot => exact absurd (Or.inr rfl) hv
    | coe r => exact ⟨r, rfl⟩
    | top => exact absurd (Or.inl rfl) hv

/-- Under the finiteness precondition every entry of both clouds is a real number. -/
theorem finite_of_pre [Cert.Pre_finite_inputs.Facts] (x y : Pts.Idx → EReal)
    (h : Cert.Pre_finite_inputs.fn (F := Ideal) x y = fun _ => 1#1) :
    (∀ i, ∃ r : ℝ, x i = (r : EReal)) ∧ (∀ i, ∃ r : ℝ, y i = (r : EReal)) := by
  have h0 := congrFun h ValueIdx.ix0
  dsimp only [Cert.Pre_finite_inputs.fn] at h0
  obtain ⟨hx, hy⟩ := IntOp.andi_eq_one.1 h0
  exact ⟨fun i => real_of_abs_lt_top (x i) (Host.reduce_andi_all _ _ _ _ _ hx i),
         fun i => real_of_abs_lt_top (y i) (Host.reduce_andi_all _ _ _ _ _ hy i)⟩

end Cert.Chamfer

end
-- ==== Proof.lean ====
/-
  The chamfer distance between two batches of point clouds, computed two ways, is one number.

  Both programs take x, y : f32[4, 8192, 3] and return the mean over the four batches of the sum of two means: over the
  points n of the first cloud of the least squared distance to the second cloud, and over the points m of the second cloud
  of the least squared distance to the first. The kernel sweeps a grid of (batch, 16 row blocks of 512, 8 column blocks of
  1024), computes each tile of squared distances coordinate by coordinate, Σ (xₖ − yₖ)², and keeps two running minima — per
  row over the column blocks, per column over the row blocks — which it writes out where a sweep ends; the reference expands
  the square, ‖x‖² + ‖y‖² − 2·x·y, over the whole table and takes the two minima at once. Over the extended reals the two
  tables agree where every coordinate is a real number (the binomial square; it needs the precondition, since products do
  not distribute at the infinities), a minimum does not depend on how its index set is cut into blocks, and the tail of
  means is the same operations on both sides. The frames of the two kernel programs are the generated ones; the
  reference's frame is its run with the result dropped; the idealization rewrote nothing.
-/
import proofs.«145213_j42795054137808_2_alg».proof.Defs
import proofs.«145213_j42795054137808_2_alg».proof.Proof.Gen.Kernel
import proofs.«145213_j42795054137808_2_alg».proof.Proof.Gen.Kernel.Frame
import proofs.«145213_j42795054137808_2_alg».proof.Proof.Gen.KernelIdeal
import proofs.«145213_j42795054137808_2_alg».proof.Proof.Gen.KernelIdeal.Frame
import proofs.«145213_j42795054137808_2_alg».proof.Proof.Gen.ReferenceIdeal
import proofs.«145213_j42795054137808_2_alg».proof.Proof.Gen.ReferenceIdeal.Run
import proofs.«145213_j42795054137808_2_alg».proof.Proof.Gen.ReferenceIdeal.Read
import proofs.«145213_j42795054137808_2_alg».proof.Proof.Gen.Pre_finite_inputs
import proofs.«145213_j42795054137808_2_alg».proof.Proof.Join
import proofs.«145213_j42795054137808_2_alg».proof.Proof.RefTail
import proofs.«145213_j42795054137808_2_alg».proof.Proof.RefRows
import proofs.«145213_j42795054137808_2_alg».proof.Proof.DistLaw
import proofs.«145213_j42795054137808_2_alg».proof.Proof.Finite
import Idealize.ShloMosaic.Adequacy
import Idealize.ShloMosaic.Init

noncomputable section

namespace Cert.Proof

open Idealize.ShloMosaic Idealize.SL.Sem Cert.Chamfer

/-- The reference runs and leaves its arguments as they were: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From clouds that agree and hold real numbers, both programs end at the tail of means of the two tables of chamfer
    minima: the kernel by its accumulation over the grid, the reference by its two reductions of the expanded table, which
    is the coordinate-by-coordinate table on real entries. -/
theorem algebraic : Cert.algebraic_KernelIdeal_ReferenceIdeal := by
  intro m ρ m' ρ' hpre hagree
  refine ⟨fun c => Cert.Chamfer.Tail.tail (F := Ideal) Cert.KernelIdeal.Facts₀.reducesTo_S4x8192_S4_d1 Cert.KernelIdeal.Facts₀.h_S_
      Cert.KernelIdeal.Facts₀.bcast_S_S4 Cert.KernelIdeal.Facts₀.reducesTo_S4_S_d0
      (rowMinOf (Cert.KernelIdeal.Step.D m c)) (colMinOf (Cert.KernelIdeal.Step.D m c)),
    Cert.KernelIdeal.Join.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hy⟩ := Cert.Chamfer.finite_of_pre _ _ (hpre c)
  rw [(hagree c).1, (hagree c).2, Cert.ReferenceIdeal.Read.val_main_v23_eq, Cert.Chamfer.Ref.v23_eq_tail,
    Cert.Chamfer.Ref.v13_eq, Cert.Chamfer.Ref.v14_eq, ← Cert.Chamfer.sq_eq_sqExp _ _ hx hy]
  rfl

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ri,
  trivial,
  algebraic⟩

end Cert.Proof

end
